-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x64x64 : Shape := ⟨4, ![4, 256, 64, 64]⟩
abbrev S256x64 : Shape := ⟨2, ![256, 64]⟩
abbrev S256x256 : Shape := ⟨2, ![256, 256]⟩
abbrev S1 : Shape := ⟨1, ![1]⟩
abbrev S_ : Shape := ⟨0, ![]⟩

class Facts : Prop where
  bcast_S_S4x256x64x64 : S_.BroadcastsInDim S4x256x64x64 (![] : Fin 0 → Fin S4x256x64x64.rank)
  reducesTo_S4x256x64x64_S_d0_1_2_3 : S4x256x64x64.ReducesTo [0, 1, 2, 3] S_
  h_S_ : 0 < S_.numel
  bcast_S_S256x64 : S_.BroadcastsInDim S256x64 (![] : Fin 0 → Fin S256x64.rank)
  reducesTo_S256x64_S_d0_1 : S256x64.ReducesTo [0, 1] S_
  bcast_S_S256x256 : S_.BroadcastsInDim S256x256 (![] : Fin 0 → Fin S256x256.rank)
  reducesTo_S256x256_S_d0_1 : S256x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S4x256x64x64 .f32) (main_arg1 : FVec F S256x64 .f32) (main_arg2 : FVec F S256x64 .f32) (main_arg3 : FVec F S256x256 .f32) (main_arg4 : FVec F S1 .f32) : IVec S_ 1 :=
  let main_v0 : FVec F S4x256x64x64 .f32 := Host.absf main_arg0
  let main_cst : FVec F S_ .f32 := constant S_ .f32 0x7F800000#32
  let main_v1 : FVec F S4x256x64x64 .f32 := broadcastInDim S4x256x64x64 ![] bcast_S_S4x256x64x64 main_cst
  let main_v2 : IVec S4x256x64x64 1 := cmpf .olt main_v0 main_v1
  let main_c : IVec S_ 1 := constantI S_ 1 1#1
  let main_v3 : IVec S_ 1 := (fun x v => Host.reduce IntOp.andi x v reducesTo_S4x256x64x64_S_d0_1_2_3 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S4x256x64x64 : Shape := ⟨4, ![4, 256, 64, 64]⟩
abbrev S256x64 : Shape := ⟨2, ![256, 64]⟩
abbrev S256x256 : Shape := ⟨2, ![256, 256]⟩
abbrev S1 : Shape := ⟨1, ![1]⟩
abbrev S4x256x4096 : Shape := ⟨3, ![4, 256, 4096]⟩
abbrev S1x1 : Shape := ⟨2, ![1, 1]⟩
abbrev S1x256x4096 : Shape := ⟨3, ![1, 256, 4096]⟩
abbrev S64x4096 : Shape := ⟨2, ![64, 4096]⟩
abbrev S256x4096 : Shape := ⟨2, ![256, 4096]⟩
abbrev S1x256x256 : Shape := ⟨3, ![1, 256, 256]⟩
abbrev S64x256 : Shape := ⟨2, ![64, 256]⟩
abbrev S64x512 : Shape := ⟨2, ![64, 512]⟩
abbrev S256x512 : Shape := ⟨2, ![256, 512]⟩
abbrev S256 : Shape := ⟨1, ![256]⟩
abbrev S256x1 : Shape := ⟨2, ![256, 1]⟩

abbrev nBuf : Space → Nat
  | .hbm => 9
  | .vmem => 11
  | .smem => 0
  | _ => 0

abbrev bufTy : (tb : Table) → Fin (tcTables nBuf tb) → BufTy
  | .hbm, ⟨0, _⟩ => ⟨S4x256x64x64, .f32⟩
  | .hbm, ⟨1, _⟩ => ⟨S256x64, .f32⟩
  | .hbm, ⟨2, _⟩ => ⟨S256x64, .f32⟩
  | .hbm, ⟨3, _⟩ => ⟨S256x256, .f32⟩
  | .hbm, ⟨4, _⟩ => ⟨S1, .f32⟩
  | .hbm, ⟨5, _⟩ => ⟨S4x256x4096, .f32⟩
  | .hbm, ⟨6, _⟩ => ⟨S1x1, .f32⟩
  | .hbm, ⟨7, _⟩ => ⟨S4x256x4096, .f32⟩
  | .hbm, ⟨8, _⟩ => ⟨S4x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S256x64, .f32⟩
  | .local _ .vmem, ⟨3, _⟩ => ⟨S256x64, .f32⟩
  | .local _ .vmem, ⟨4, _⟩ => ⟨S256x256, .f32⟩
  | .local _ .vmem, ⟨5, _⟩ => ⟨S1x1, .f32⟩
  | .local _ .vmem, ⟨6, _⟩ => ⟨S1x256x4096, .f32⟩
  | .local _ .vmem, ⟨7, _⟩ => ⟨S1x256x4096, .f32⟩
  | .local _ .vmem, ⟨8, _⟩ => ⟨S64x4096, .bf16⟩
  | .local _ .vmem, ⟨9, _⟩ => ⟨S256x4096, .f32⟩
  | .local _ .vmem, ⟨10, _⟩ => ⟨S256x4096, .f32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let c0_1 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  ![0, 0, v5.toNat]
def k0_mult2 : BitVec 32 :=
  let c0_i32_7 : BitVec 32 := 0#32
  let c512_i32 : BitVec 32 := 512#32
  let v17 : BitVec 32 := Scalar.muli c0_i32_7 c512_i32
  v17
def k0_off2 (c0_i32_7 : BitVec 32) : Fin 2 → Nat :=
  let c0_8 : Index := 0#32
  let c512_i32 : BitVec 32 := 512#32
  let v17 : BitVec 32 := Scalar.muli c0_i32_7 c512_i32
  let v18 : BitVec 32 := v17
  let v19 : Index := Scalar.indexCast v18
  ![0, v19.toNat]
def k0_off3 (c0_i32_7 : BitVec 32) : Fin 2 → Nat :=
  let c0_10 : Index := 0#32
  let c512_i32 : BitVec 32 := 512#32
  let v17 : BitVec 32 := Scalar.muli c0_i32_7 c512_i32
  let v18 : BitVec 32 := v17
  let v22 : Index := Scalar.indexCast v18
  ![0, v22.toNat]
def k0_mult3 : BitVec 32 :=
  let c1_i32 : BitVec 32 := 1#32
  let c512_i32_11 : BitVec 32 := 512#32
  let v26 : BitVec 32 := Scalar.muli c1_i32 c512_i32_11
  v26
def k0_mult4 : BitVec 32 :=
  let c2_i32 : BitVec 32 := 2#32
  let c512_i32_15 : BitVec 32 := 512#32
  let v35 : BitVec 32 := Scalar.muli c2_i32 c512_i32_15
  v35
def k0_mult5 : BitVec 32 :=
  let c3_i32 : BitVec 32 := 3#32
  let c512_i32_19 : BitVec 32 := 512#32
  let v44 : BitVec 32 := Scalar.muli c3_i32 c512_i32_19
  v44
def k0_mult6 : BitVec 32 :=
  let c4_i32 : BitVec 32 := 4#32
  let c512_i32_23 : BitVec 32 := 512#32
  let v53 : BitVec 32 := Scalar.muli c4_i32 c512_i32_23
  v53
def k0_mult7 : BitVec 32 :=
  let c5_i32 : BitVec 32 := 5#32
  let c512_i32_27 : BitVec 32 := 512#32
  let v62 : BitVec 32 := Scalar.muli c5_i32 c512_i32_27
  v62
def k0_mult8 : BitVec 32 :=
  let c6_i32 : BitVec 32 := 6#32
  let c512_i32_31 : BitVec 32 := 512#32
  let v71 : BitVec 32 := Scalar.muli c6_i32 c512_i32_31
  v71
def k0_mult9 : BitVec 32 :=
  let c7_i32 : BitVec 32 := 7#32
  let c512_i32_35 : BitVec 32 := 512#32
  let v80 : BitVec 32 := Scalar.muli c7_i32 c512_i32_35
  v80
def k0_mult10 : BitVec 32 :=
  let c0_i32_49 : BitVec 32 := 0#32
  let c512_i32_50 : BitVec 32 := 512#32
  let v102 : BitVec 32 := Scalar.muli c0_i32_49 c512_i32_50
  v102
def k0_mult11 : BitVec 32 :=
  let c1_i32_55 : BitVec 32 := 1#32
  let c512_i32_56 : BitVec 32 := 512#32
  let v117 : BitVec 32 := Scalar.muli c1_i32_55 c512_i32_56
  v117
def k0_mult12 : BitVec 32 :=
  let c2_i32_61 : BitVec 32 := 2#32
  let c512_i32_62 : BitVec 32 := 512#32
  let v132 : BitVec 32 := Scalar.muli c2_i32_61 c512_i32_62
  v132
def k0_mult13 : BitVec 32 :=
  let c3_i32_67 : BitVec 32 := 3#32
  let c512_i32_68 : BitVec 32 := 512#32
  let v147 : BitVec 32 := Scalar.muli c3_i32_67 c512_i32_68
  v147
def k0_mult14 : BitVec 32 :=
  let c4_i32_73 : BitVec 32 := 4#32
  let c512_i32_74 : BitVec 32 := 512#32
  let v162 : BitVec 32 := Scalar.muli c4_i32_73 c512_i32_74
  v162
def k0_mult15 : BitVec 32 :=
  let c5_i32_79 : BitVec 32 := 5#32
  let c512_i32_80 : BitVec 32 := 512#32
  let v177 : BitVec 32 := Scalar.muli c5_i32_79 c512_i32_80
  v177
def k0_mult16 : BitVec 32 :=
  let c6_i32_85 : BitVec 32 := 6#32
  let c512_i32_86 : BitVec 32 := 512#32
  let v192 : BitVec 32 := Scalar.muli c6_i32_85 c512_i32_86
  v192
def k0_mult17 : BitVec 32 :=
  let c7_i32_91 : BitVec 32 := 7#32
  let c512_i32_92 : BitVec 32 := 512#32
  let v207 : BitVec 32 := Scalar.muli c7_i32_91 c512_i32_92
  v207
def k0_cond2 (i : grid0.Coords) : BitVec 1 :=
  let arg1 : BitVec 32 := BitVec.ofNat 32 (i 1).val
  let c15_i32 : BitVec 32 := 15#32
  let v222 : BitVec 1 := Scalar.cmpi .eq arg1 c15_i32
  let v223 : BitVec 32 := Scalar.extui v222
  let c0_i32_98 : BitVec 32 := 0#32
  let v224 : BitVec 1 := Scalar.cmpi .ne v223 c0_i32_98
  v224

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4x256x64x64_S4x256x4096 : S4x256x64x64.ShapeCasts S4x256x4096
  shapeCasts_S1_S1x1 : S1.ShapeCasts S1x1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  packedbf16_S64x4096_S64x4096_0_0 : (Rect.unit (s := S64x4096) ![0, 0] S64x4096.size inb_S64x4096_S64x4096_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  h_S1x256x256 : 0 < S1x256x256.numel
  shapeCasts_S1x256x256_S256x256 : S1x256x256.ShapeCasts S256x256
  inb_S256x256_S256x256_0_0 : ∀ a, (![0, 0] : Fin 2 → Nat) a + S256x256.size a ≤ S256x256.size a
  h_S256x256 : 0 < S256x256.numel
  h_S64x512 : 0 < S64x512.numel
  h_S256x512 : 0 < S256x512.numel
  shapeCasts_S256x512_S256x512 : S256x512.ShapeCasts S256x512
  reduces_S256x4096_S256 : S256x4096.Reduces [1] S256
  shapeCasts_S256_S256x1 : S256.ShapeCasts S256x1
  broadcasts_S256x1_S256x4096 : S256x1.Broadcasts S256x4096
  broadcasts_S256x1_S256x512 : S256x1.Broadcasts S256x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x4096 : S1x1.Broadcasts S256x4096
  shapeCasts_S256x4096_S1x256x4096 : S256x4096.ShapeCasts S1x256x4096
  shapeCasts_S4x256x4096_S4x256x64x64 : S4x256x4096.ShapeCasts S4x256x64x64
  dot_S256x64_S256x4096_S64x4096_0_0_1_1_n_n_wf : DotDims.WF S256x64 S256x4096 S64x4096 [0] [0] [1] [1] [] []
  dot_S256x64_S256x256_S64x256_0_0_1_1_n_n_wf : DotDims.WF S256x64 S256x256 S64x256 [0] [0] [1] [1] [] []
  dot_S256x256_S256x256_S256x256_0_0_1_1_n_n_wf : DotDims.WF S256x256 S256x256 S256x256 [0] [0] [1] [1] [] []
  dot_S64x256_S64x512_S256x512_0_0_1_1_n_n_wf : DotDims.WF S64x256 S64x512 S256x512 [0] [0] [1] [1] [] []
  dot_S256x256_S256x512_S256x512_1_0_0_1_n_n_wf : DotDims.WF S256x256 S256x512 S256x512 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x256.size a ≤ S1x256x4096.size a
  k0_mult2_dvd : 512 ∣ k0_mult2.toNat
  k0_off2_inb : ∀ (r : Fin 8), ∀ a, (k0_off2 (BitVec.ofNat 32 r.val)) a + S64x512.size a ≤ S64x4096.size a
  k0_off3_inb : ∀ (r : Fin 8), ∀ a, (k0_off3 (BitVec.ofNat 32 r.val)) a + S256x512.size a ≤ S256x4096.size a
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  k0_mult9_dvd : 512 ∣ k0_mult9.toNat
  k0_mult10_dvd : 512 ∣ k0_mult10.toNat
  k0_mult11_dvd : 512 ∣ k0_mult11.toNat
  k0_mult12_dvd : 512 ∣ k0_mult12.toNat
  k0_mult13_dvd : 512 ∣ k0_mult13.toNat
  k0_mult14_dvd : 512 ∣ k0_mult14.toNat
  k0_mult15_dvd : 512 ∣ k0_mult15.toNat
  k0_mult16_dvd : 512 ∣ k0_mult16.toNat
  k0_mult17_dvd : 512 ∣ k0_mult17.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S4x256x4096.size a
  hwx0_0 : ∀ i : grid0.Coords, EltTy.bits .f32 = 32 ∨ (Rect.block (s := S4x256x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x4096.size a ≤ S4x256x4096.size a
  hwx0_5 : ∀ i : grid0.Coords, EltTy.bits .f32 = 32 ∨ (Rect.block (s := S4x256x4096) S1x256x4096.size (cc0_transform_5 i) (hinb0_5 i)).WholeWords (EltTy.packing .f32)

variable [Facts₀]

def dot_S256x64_S256x4096_S64x4096_0_0_1_1_n_n : DotDims S256x64 S256x4096 S64x4096 where
  lhsContracting := [0]
  rhsContracting := [0]
  lhsNonContracting := [1]
  rhsNonContracting := [1]
  lhsBatch := []
  rhsBatch := []
  wf := dot_S256x64_S256x4096_S64x4096_0_0_1_1_n_n_wf
def dot_S256x64_S256x256_S64x256_0_0_1_1_n_n : DotDims S256x64 S256x256 S64x256 where
  lhsContracting := [0]
  rhsContracting := [0]
  lhsNonContracting := [1]
  rhsNonContracting := [1]
  lhsBatch := []
  rhsBatch := []
  wf := dot_S256x64_S256x256_S64x256_0_0_1_1_n_n_wf
def dot_S256x256_S256x256_S256x256_0_0_1_1_n_n : DotDims S256x256 S256x256 S256x256 where
  lhsContracting := [0]
  rhsContracting := [0]
  lhsNonContracting := [1]
  rhsNonContracting := [1]
  lhsBatch := []
  rhsBatch := []
  wf := dot_S256x256_S256x256_S256x256_0_0_1_1_n_n_wf
def dot_S64x256_S64x512_S256x512_0_0_1_1_n_n : DotDims S64x256 S64x512 S256x512 where
  lhsContracting := [0]
  rhsContracting := [0]
  lhsNonContracting := [1]
  rhsNonContracting := [1]
  lhsBatch := []
  rhsBatch := []
  wf := dot_S64x256_S64x512_S256x512_0_0_1_1_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x256x64x64 : Shape := ⟨4, ![4, 256, 64, 64]⟩
abbrev S256x64 : Shape := ⟨2, ![256, 64]⟩
abbrev S256x256 : Shape := ⟨2, ![256, 256]⟩
abbrev S1 : Shape := ⟨1, ![1]⟩
abbrev S4x64x64x256 : Shape := ⟨4, ![4, 64, 64, 256]⟩
abbrev S4x4096x256 : Shape := ⟨3, ![4, 4096, 256]⟩
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x1x4096 : Shape := ⟨3, ![4, 1, 4096]⟩
abbrev S1x1x1 : Shape := ⟨3, ![1, 1, 1]⟩
abbrev S4x256x4096 : Shape := ⟨3, ![4, 256, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4x256x64x64, .f32⟩
  | .hbm, ⟨1, _⟩ => ⟨S256x64, .f32⟩
  | .hbm, ⟨2, _⟩ => ⟨S256x64, .f32⟩
  | .hbm, ⟨3, _⟩ => ⟨S256x256, .f32⟩
  | .hbm, ⟨4, _⟩ => ⟨S1, .f32⟩
  | .hbm, ⟨5, _⟩ => ⟨S4x64x64x256, .f32⟩
  | .hbm, ⟨6, _⟩ => ⟨S4x4096x256, .f32⟩
  | .hbm, ⟨7, _⟩ => ⟨S4x4096x64, .f32⟩
  | .hbm, ⟨8, _⟩ => ⟨S4x4096x64, .f32⟩
  | .hbm, ⟨9, _⟩ => ⟨S4x4096x256, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S4x1x4096, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S4x1x4096, .f32⟩
  | .hbm, ⟨23, _⟩ => ⟨S4x4096x4096, .f32⟩
  | .hbm, ⟨24, _⟩ => ⟨S4x4096x4096, .f32⟩
  | .hbm, ⟨25, _⟩ => ⟨S4x4096x256, .f32⟩
  | .hbm, ⟨26, _⟩ => ⟨S1x1x1, .f32⟩
  | .hbm, ⟨27, _⟩ => ⟨S4x4096x256, .f32⟩
  | .hbm, ⟨28, _⟩ => ⟨S4x4096x256, .f32⟩
  | .hbm, ⟨29, _⟩ => ⟨S4x4096x256, .f32⟩
  | .hbm, ⟨30, _⟩ => ⟨S4x256x4096, .f32⟩
  | .hbm, ⟨31, _⟩ => ⟨S4x256x64x64, .f32⟩
  | _, _ => ⟨S4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  transposes_S4x256x64x64_S4x64x64x256_0_2_3_1 : S4x256x64x64.Transposes [0, 2, 3, 1] S4x64x64x256
  shapeCasts_S4x64x64x256_S4x4096x256 : S4x64x64x256.ShapeCasts S4x4096x256
  reducesTo_S4x4096x4096_S4x4096_d1 : S4x4096x4096.ReducesTo [1] S4x4096
  h_S_ : 0 < S_.numel
  bcast_S_S4x4096 : S_.BroadcastsInDim S4x4096 (![] : Fin 0 → Fin S4x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  bcast_S1_S1x1x1_2 : S1.BroadcastsInDim S1x1x1 (![2] : Fin 1 → Fin S1x1x1.rank)
  bcast_S1x1x1_S4x4096x256_0_1_2 : S1x1x1.BroadcastsInDim S4x4096x256 (![0, 1, 2] : Fin 3 → Fin S4x4096x256.rank)
  transposes_S4x4096x256_S4x256x4096_0_2_1 : S4x4096x256.Transposes [0, 2, 1] S4x256x4096
  shapeCasts_S4x256x4096_S4x256x64x64 : S4x256x4096.ShapeCasts S4x256x64x64
  dot_S4x4096x256_S256x64_S4x4096x64_2_0_01_1_n_n_wf : DotDims.WF S4x4096x256 S256x64 S4x4096x64 [2] [0] [0, 1] [1] [] []
  dot_S4x4096x256_S256x256_S4x4096x256_2_0_01_1_n_n_wf : DotDims.WF S4x4096x256 S256x256 S4x4096x256 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x64_S4x4096x64_2_0_01_1_n_n : DotDims S4x4096x256 S256x64 S4x4096x64 where
  lhsContracting := [2]
  rhsContracting := [0]
  lhsNonContracting := [0, 1]
  rhsNonContracting := [1]
  lhsBatch := []
  rhsBatch := []
  wf := dot_S4x4096x256_S256x64_S4x4096x64_2_0_01_1_n_n_wf
def dot_S4x4096x256_S256x256_S4x4096x256_2_0_01_1_n_n : DotDims S4x4096x256 S256x256 S4x4096x256 where
  lhsContracting := [2]
  rhsContracting := [0]
  lhsNonContracting := [0, 1]
  rhsNonContracting := [1]
  lhsBatch := []
  rhsBatch := []
  wf := dot_S4x4096x256_S256x256_S4x4096x256_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.LibBlockSum.lean ====
/-
  Regrouping a finite sum into consecutive blocks, in any commutative additive monoid (no cancellation and no
  finiteness is used, so it holds on the extended reals): a sum over `n * k` consecutive indices is the sum over the
  `n` blocks of the sums over the `k` places inside a block, place `e` of block `s` being index `e + k * s`.
-/
import Mathlib

namespace Cert.Lib.BlockSum

/-- Place `e` of block `s`, as an index below `n * k`: the natural `e + k * s`. -/
theorem place_val (n k : ℕ) (s : Fin n) (e : Fin k) : (finProdFinEquiv (s, e) : Fin (n * k)).val = e.val + k * s.val := rfl

/-- A sum over `Fin (n * k)` read block by block. -/
theorem sum_fin_mul_fin {M : Type*} [AddCommMonoid M] (n k : ℕ) (f : Fin (n * k) → M) :
    ∑ i : Fin (n * k), f i = ∑ s : Fin n, ∑ e : Fin k, f (finProdFinEquiv (s, e)) := by
  rw [← Fintype.sum_prod_type']
  exact (Equiv.sum_comp finProdFinEquiv f).symm

/-- The same with the summand a function of the natural under the index. -/
theorem sum_fin_mul {M : Type*} [AddCommMonoid M] (n k : ℕ) (f : ℕ → M) :
    ∑ i : Fin (n * k), f i.val = ∑ s : Fin n, ∑ e : Fin k, f (e.val + k * s.val) :=
  sum_fin_mul_fin n k fun i => f i.val

end Cert.Lib.BlockSum
-- ==== Proof.Spec.lean ====
/-
  The mathematics of the attention block both programs compute, on the extended reals.

  For one batch the input is a matrix `Xb` of 256 channels by 4096 positions.  Position `k` acts as a KEY through its column
  `xc = Xb · k`: its key vector `Kcol` and value vector `Vcol` are the column taken through the weights.  Every position acts
  as a QUERY through `Qf`.  The scores of key `k` against all queries form a row `Srow`; the softmax runs ALONG THAT ROW (over
  the queries, for a fixed key): the row's maximum `Mrow`, the exponentials `Prow`, their sum `Lrow`.  Key `k` then adds
  `Vcol c · (Prow n / Lrow)` to the output at channel `c`, query `n` (`term`); the output is `γ` times the sum of these over
  all keys, plus the input.  Everything about one key depends only on that key's column and on `Qf`, so the sum over the
  4096 keys may be taken sixteen blocks of 256 keys at a time (`accT`, `accT_full`).
-/
import Mathlib
import Idealize.ShloMosaic.PureOps.Ideal
import Idealize.ShloMosaic.Lib.ValueIdx
import proofs.«182164_j80702435492474_2_alg».proof.Proof.LibBlockSum

noncomputable section

namespace Cert.Attn

open Idealize.ShloMosaic Idealize.ShloMosaic.ValueIdx

/-- The value every maximum starts from: the word of minus infinity (never evaluated: both programs carry the same word). -/
abbrev negInf : EReal := Ideal.ofBits .f32 0xFF800000#32

section
variable (wq wk : (⟨2, ![256, 64]⟩ : Shape).Idx → EReal) (wv : (⟨2, ![256, 256]⟩ : Shape).Idx → EReal)

/-- The key vector of a position with column `xc`. -/
def Kcol (xc : Fin 256 → EReal) (d : Fin 64) : EReal := ∑ c : Fin 256, wk (ix2 c d) * xc c

/-- The value vector of a position with column `xc`. -/
def Vcol (xc : Fin 256 → EReal) (c' : Fin 256) : EReal := ∑ c : Fin 256, wv (ix2 c c') * xc c

/-- The query vectors of all positions. -/
def Qf (Xb : Fin 256 → Fin 4096 → EReal) (d : Fin 64) (n : Fin 4096) : EReal := ∑ c : Fin 256, wq (ix2 c d) * Xb c n

/-- The scores of one key against every query. -/
def Srow (xc : Fin 256 → EReal) (Q : Fin 64 → Fin 4096 → EReal) (n : Fin 4096) : EReal := ∑ d : Fin 64, Kcol wk xc d * Q d n

/-- The largest score of one key. -/
def Mrow (xc : Fin 256 → EReal) (Q : Fin 64 → Fin 4096 → EReal) : EReal :=
  (Finset.univ : Finset (Fin 4096)).fold max negInf fun n => Srow wk xc Q n

/-- The exponentials of one key's scores, taken from the largest. -/
def Prow (xc : Fin 256 → EReal) (Q : Fin 64 → Fin 4096 → EReal) (n : Fin 4096) : EReal :=
  Ideal.exp (Srow wk xc Q n - Mrow wk xc Q)

/-- Their sum over the queries. -/
def Lrow (xc : Fin 256 → EReal) (Q : Fin 64 → Fin 4096 → EReal) : EReal := ∑ n : Fin 4096, Prow wk xc Q n

/-- What one key adds to the output at channel `c`, query `n`. -/
def term (xc : Fin 256 → EReal) (Q : Fin 64 → Fin 4096 → EReal) (c : Fin 256) (n : Fin 4096) : EReal :=
  Vcol wv xc c * Ideal.div (Prow wk xc Q n) (Lrow wk xc Q)

/-- The attention sum over all keys. -/
def Af (Xb : Fin 256 → Fin 4096 → EReal) (c : Fin 256) (n : Fin 4096) : EReal :=
  ∑ k : Fin 4096, term wk wv (fun c' => Xb c' k) (Qf wq Xb) c n

/-- Key number `k`'s contribution, as a function of a natural number (zero past the last key). -/
def termN (Xb : Fin 256 → Fin 4096 → EReal) (c : Fin 256) (n : Fin 4096) (k : ℕ) : EReal :=
  if h : k < 4096 then term wk wv (fun c' => Xb c' ⟨k, h⟩) (Qf wq Xb) c n else 0

/-- The attention sum over the first `T` blocks of 256 keys. -/
def accT (Xb : Fin 256 → Fin 4096 → EReal) (T : ℕ) (c : Fin 256) (n : Fin 4096) : EReal :=
  ∑ i ∈ Finset.range T, ∑ e : Fin 256, termN wq wk wv Xb c n (e.val + 256 * i)

theorem accT_zero (Xb : Fin 256 → Fin 4096 → EReal) (c : Fin 256) (n : Fin 4096) : accT wq wk wv Xb 0 c n = 0 := by
  unfold accT; rw [Finset.range_zero, Finset.sum_empty]

theorem accT_succ (Xb : Fin 256 → Fin 4096 → EReal) (T : ℕ) (c : Fin 256) (n : Fin 4096) :
    accT wq wk wv Xb (T + 1) c n = accT wq wk wv Xb T c n + ∑ e : Fin 256, termN wq wk wv Xb c n (e.val + 256 * T) := by
  unfold accT; rw [Finset.sum_range_succ]

/-- Sixteen blocks of 256 keys are all 4096 keys. -/
theorem accT_full (Xb : Fin 256 → Fin 4096 → EReal) (c : Fin 256) (n : Fin 4096) :
    accT wq wk wv Xb 16 c n = Af wq wk wv Xb c n := by
  unfold accT Af
  have h1 : (∑ k : Fin 4096, term wk wv (fun c' => Xb c' k) (Qf wq Xb) c n)
      = ∑ k : Fin (16 * 256), termN wq wk wv Xb c n k.val :=
    Finset.sum_congr rfl fun k _ => by unfold termN; rw [dif_pos k.isLt]
  rw [h1, Cert.Lib.BlockSum.sum_fin_mul 16 256 (termN wq wk wv Xb c n), Finset.sum_range]

end

/-- The block's output for one batch: `γ` times the attention sum, plus the input. -/
def Outb (γ : EReal) (wq wk : (⟨2, ![256, 64]⟩ : Shape).Idx → EReal) (wv : (⟨2, ![256, 256]⟩ : Shape).Idx → EReal)
    (Xb : Fin 256 → Fin 4096 → EReal) (c : Fin 256) (n : Fin 4096) : EReal :=
  γ * Af wq wk wv Xb c n + Xb c n

/-- Batch `b` of the input, its two trailing axes (64 × 64) flattened row-major into 4096 positions. -/
def Xof (x : (⟨4, ![4, 256, 64, 64]⟩ : Shape).Idx → EReal) (b : Fin 4) (c : Fin 256) (n : Fin 4096) : EReal :=
  x (ix4 b c ⟨n.val / 64, by have := n.isLt; omega⟩ ⟨n.val % 64, Nat.mod_lt _ (by norm_num)⟩)

/-- The whole result, as one function of the argument arrays. -/
def G (x : (⟨4, ![4, 256, 64, 64]⟩ : Shape).Idx → EReal) (wq wk : (⟨2, ![256, 64]⟩ : Shape).Idx → EReal)
    (wv : (⟨2, ![256, 256]⟩ : Shape).Idx → EReal) (g : (⟨1, ![1]⟩ : Shape).Idx → EReal) :
    (⟨4, ![4, 256, 64, 64]⟩ : Shape).Idx → EReal := fun i =>
  Outb (g (ix1 0)) wq wk wv (Xof x (i 0)) (i 1)
    ⟨64 * (i 2).val + (i 3).val, by have h2 : (i 2).val < 64 := (i 2).isLt; have h3 : (i 3).val < 64 := (i 3).isLt; omega⟩

end Cert.Attn

end
-- ==== Proof.LibKeepdims.lean ====
/-
  Reading the pieces of a softmax over a rank-3 array at an index, for any extents `a × b × c`.

  A softmax along an axis takes a maximum and a sum along that axis, puts the reduced axis back with extent one
  ("keepdims") and broadcasts it over the array again.  The lemmas here read each of those steps at an index written by
  its coordinates:

  * an `[a, b]` array cast to `[a, b, 1]` and an `[a, b, 1]` array broadcast to `[a, b, c]` (the last axis reduced);
  * an `[a, c]` array cast to `[a, 1, c]` and an `[a, 1, c]` array broadcast to `[a, b, c]` (the middle axis reduced);
  * the index over `(i, j)` with coordinate `k` inserted on the last axis is `(i, j, k)`, and over `(i, k)` with `j`
    inserted on the middle axis it is `(i, j, k)`;
  * hence, on the extended reals, a vector maximum along the last or the middle axis is the fold of `max` over that
    axis's coordinates, a vector sum the sum over them, and the host's maximum along the last axis the same fold.
-/
import Idealize.ShloMosaic.PureOps.Ideal.Laws
import Idealize.ShloMosaic.Lib.ValueIdx
import Idealize.ShloMosaic.Lib.Pipeline.Value

noncomputable section

namespace Idealize.ShloMosaic.Keepdims

open Idealize.ShloMosaic Idealize.ShloMosaic.ValueIdx

variable {α : Type} {a b c : ℕ}

/-! ## The reduced axis put back with extent one, and broadcast again -/

/-- An `[a, b]` array cast to `[a, b, 1]` reads, at `(i, j, u)`, the operand at `(i, j)`. -/
theorem shapeCast_ab_ab1_apply (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if (1 : ℕ) = 1 then 0 else k.val
    rw [if_pos rfl]

/-- An `[a, c]` array cast to `[a, 1, c]` reads, at `(i, u, k)`, the operand at `(i, k)`. -/
theorem shapeCast_ac_a1c_apply (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]
  | ⟨2, _⟩ =>
    show k.val = if c = 1 then 0 else k.val
    split
    · have := k.isLt; omega
    · rfl

/-! ## The index with the reduced coordinate inserted -/

/-- Over `(i, j)`, with `k` inserted on the last axis: `(i, j, k)`. -/
theorem lift_last (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Over `(i, k)`, with `j` inserted on the middle axis: `(i, j, k)`. -/
theorem lift_middle (h : (⟨3, ![a, b, c]⟩ : Shape).Reduces [1] ⟨2, ![a, c]⟩) (i : Fin a) (j : Fin b) (k : Fin c) :
    h.lift (ix2 i k) j = ix3 i j k := by
  funext ax
  apply Fin.ext
  match ax with
  | ⟨0, _⟩ => rfl
  | ⟨1, _⟩ => rfl
  | ⟨2, _⟩ => rfl

/-! ## Maxima and sums along one axis, on the extended reals -/

variable {φ : FTy}

/-- A vector maximum along the last axis, at `(i, j)`: the fold of `max` from the accumulator's value over `k`. -/
theorem multiReduction_max_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) fun k => src (ix3 i j k) := by
  refine (Ideal.multiReduction_maximumf_single src acc h hφ hacc (ix2 i j)).trans ?_
  refine congrArg (Finset.fold max (Ideal.ofBits φ acc) · Finset.univ) (funext fun k => ?_)
  exact congrArg src (lift_last h i j k)

/-- A vector sum along the last axis, at `(i, j)`: the sum over `k`. -/
theorem multiReduction_add_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  exact Finset.sum_congr rfl fun k _ => congrArg src (lift_last h i j k)

/-- A vector maximum along the middle axis, at `(i, k)`: the fold of `max` from the accumulator's value over `j`. -/
theorem multiReduction_max_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ)
    (i : Fin a) (k : Fin c) :
    multiReduction .maximumf [1] ⟨2, ![a, c]⟩ src acc h hφ hacc (ix2 i k)
      = (Finset.univ : Finset (Fin b)).fold max (Ideal.ofBits φ acc) fun j => src (ix3 i j k) := by
  refine (Ideal.multiReduction_maximumf_single src acc h hφ hacc (ix2 i k)).trans ?_
  refine congrArg (Finset.fold max (Ideal.ofBits φ acc) · Finset.univ) (funext fun j => ?_)
  exact congrArg src (lift_middle h i j k)

/-- A vector sum along the middle axis, at `(i, k)`: the sum over `j`. -/
theorem multiReduction_add_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  exact Finset.sum_congr rfl fun j _ => congrArg src (lift_middle h i j k)

/-- The host's maximum along the last axis, at `(i, j)`: the fold of `max` from the initial value over `k`. -/
theorem hostReduce_max_last {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := φ)) x init h' hu (ix2 i j)
      = (Finset.univ : Finset (Fin c)).fold max (init (Shape.Idx.first hu)) fun k => x (ix3 i j k) := by
  refine (Host.reduce_eq_fold_single (FloatOps.maximumf (F := Ideal) (φ := φ)) x init h' h hu (ix2 i j)).trans ?_
  refine congrArg (Finset.fold max (init (Shape.Idx.first hu)) · Finset.univ) (funext fun k => ?_)
  exact congrArg x (lift_last h i j k)

end Idealize.ShloMosaic.Keepdims

end
-- ==== Proof.RefValue.lean ====
/-
  The reference program computes the specification \`G\`.

  The reference works on the input with its two trailing axes flattened and the channel axis moved last:
  \`xf[b, n, c] = x[b, c, n / 64, n % 64]\`, which is \`Xof x b c n\`.  From it:

  * \`q[b, n, d] = ∑ c, xf[b, n, c] · Wq[c, d]\` is \`Qf Wq (Xof x b) d n\`; \`k[b, k, d]\` is \`Kcol Wk\` of the column of position \`k\`;
    \`v[b, k, c']\` is \`Vcol Wv\` of the same column (each a sum of products, in the other order of the factors);
  * the score \`s[b, n, k] = ∑ d, q[b, n, d] · k[b, k, d]\` is \`Srow\` of key \`k\` at query \`n\`;
  * the maximum over the query axis (the middle axis), taken from the word of minus infinity and then once more against that
    word, is \`Mrow\`: the fold already lies above the value it starts from;
  * the exponentials are \`Prow\`, their sum over the query axis (zero plus the sum) is \`Lrow\`;
  * the product of the quotient with \`v\`, summed over the keys, is \`Af\`; times \`γ\`, plus \`xf\`, is \`Outb\`;
  * the final transposition and reshape read this at \`(b, 64·h + w, c)\` for the output index \`(b, c, h, w)\`.
-/
import Mathlib
import proofs.«182164_j80702435492474_2_alg».proof.Proof.Spec
import proofs.«182164_j80702435492474_2_alg».proof.Proof.Gen.ReferenceIdeal.Read
import proofs.«182164_j80702435492474_2_alg».proof.Proof.LibKeepdims
import proofs.«182164_j80702435492474_2_alg».proof.Proof.LibBlockSum
import Idealize.ShloMosaic.Lib.ValueIdx
import Idealize.ShloMosaic.Lib.Pipeline.Value
import Idealize.ShloMosaic.PureOps.Ideal.Laws

noncomputable section

namespace Cert.Attn.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Idealize.ShloMosaic.Keepdims

/-- The host's maximum along the middle axis, at \`(i, k)\`: the fold of \`max\` from the initial value over \`j\`. -/
theorem hostReduce_max_middle {a b c : ℕ} {φ : FTy} {u : Shape} (x : (⟨3, ![a, b, c]⟩ : Shape).Idx → Ideal φ) (init : u.Idx → Ideal φ)
    (h' : (⟨3, ![a, b, c]⟩ : Shape).ReducesTo [1] ⟨2, ![a, c]⟩) (h : (⟨3, ![a, b, c]⟩ : Shape).Reduces [1] ⟨2, ![a, c]⟩)
    (hu : 0 < u.numel) (i : Fin a) (k : Fin c) :
    Host.reduce (FloatOps.maximumf (F := Ideal) (φ := φ)) x init h' hu (ix2 i k)
      = (Finset.univ : Finset (Fin b)).fold max (init (Shape.Idx.first hu)) fun j => x (ix3 i j k) := by
  refine (Host.reduce_eq_fold_single (FloatOps.maximumf (F := Ideal) (φ := φ)) x init h' h hu (ix2 i k)).trans ?_
  refine congrArg (Finset.fold max (init (Shape.Idx.first hu)) · Finset.univ) (funext fun j => ?_)
  exact congrArg x (lift_middle h i j k)

variable (x0 : (⟨S4x256x64x64, .f32⟩ : BufTy).Contents (Elt Ideal)) (x1 x2 : (⟨S256x64, .f32⟩ : BufTy).Contents (Elt Ideal))
  (x3 : (⟨S256x256, .f32⟩ : BufTy).Contents (Elt Ideal)) (x4 : (⟨S1, .f32⟩ : BufTy).Contents (Elt Ideal))

/-- The flattened input at \`(b, n, c)\` is the input at channel \`c\`, position \`n\` of batch \`b\`. -/
theorem xf_at (b : Fin 4) (n : Fin 4096) (c : Fin 256) :
    val_main_v1 (F := Ideal) x0 (ix3 b n c) = Xof x0 b c n := by
  rw [val_main_v1_apply, val_main_v0_apply]
  unfold Xof
  refine congrArg x0 (funext fun a => Fin.ext ?_)
  have hb : b.val < 4 := b.isLt
  have hn : n.val < 4096 := n.isLt
  have hc : c.val < 256 := c.isLt
  match a with
  | ⟨0, _⟩ => show ((b.val * 4096 + n.val) * 256 + c.val) / 1048576 = b.val; omega
  | ⟨1, _⟩ => show ((b.val * 4096 + n.val) * 256 + c.val) % 256 = c.val; omega
  | ⟨2, _⟩ => show ((b.val * 4096 + n.val) * 256 + c.val) / 16384 % 64 = n.val / 64; omega
  | ⟨3, _⟩ => show ((b.val * 4096 + n.val) * 256 + c.val) / 256 % 64 = n.val % 64; omega

/-- The query vectors. -/
theorem q_at (b : Fin 4) (n : Fin 4096) (d : Fin 64) :
    val_main_v2 (F := Ideal) x0 x1 (ix3 b n d) = Qf x1 (Xof x0 b) d n := by
  rw [val_main_v2_apply]
  unfold Qf
  refine Finset.sum_congr rfl fun c _ => ?_
  have e1 : lidx_main_v2 (ix3 b n d) c = ix3 b n c :=
    funext fun a => Fin.ext (by match a with | ⟨0, _⟩ => rfl | ⟨1, _⟩ => rfl | ⟨2, _⟩ => rfl)
  have e2 : ridx_main_v2 (ix3 b n d) c = ix2 c d :=
    funext fun a => Fin.ext (by match a with | ⟨0, _⟩ => rfl | ⟨1, _⟩ => rfl)
  rw [e1, e2, xf_at, mul_comm]

/-- The key vector of position \`k\`. -/
theorem k_at (b : Fin 4) (k : Fin 4096) (d : Fin 64) :
    val_main_v3 (F := Ideal) x0 x2 (ix3 b k d) = Kcol x2 (fun c' => Xof x0 b c' k) d := by
  rw [val_main_v3_apply]
  unfold Kcol
  refine Finset.sum_congr rfl fun c _ => ?_
  have e1 : lidx_main_v3 (ix3 b k d) c = ix3 b k c :=
    funext fun a => Fin.ext (by match a with | ⟨0, _⟩ => rfl | ⟨1, _⟩ => rfl | ⟨2, _⟩ => rfl)
  have e2 : ridx_main_v3 (ix3 b k d) c = ix2 c d :=
    funext fun a => Fin.ext (by match a with | ⟨0, _⟩ => rfl | ⟨1, _⟩ => rfl)
  rw [e1, e2, xf_at, mul_comm]

/-- The value vector of position \`k\`. -/
theorem v_at (b : Fin 4) (k : Fin 4096) (c' : Fin 256) :
    val_main_v4 (F := Ideal) x0 x3 (ix3 b k c') = Vcol x3 (fun c'' => Xof x0 b c'' k) c' := by
  rw [val_main_v4_apply]
  unfold Vcol
  refine Finset.sum_congr rfl fun c _ => ?_
  have e1 : lidx_main_v4 (ix3 b k c') c = ix3 b k c :=
    funext fun a => Fin.ext (by match a with | ⟨0, _⟩ => rfl | ⟨1, _⟩ => rfl | ⟨2, _⟩ => rfl)
  have e2 : ridx_main_v4 (ix3 b k c') c = ix2 c c' :=
    funext fun a => Fin.ext (by match a with | ⟨0, _⟩ => rfl | ⟨1, _⟩ => rfl)
  rw [e1, e2, xf_at, mul_comm]

/-- The score of key \`k\` against query \`n\`. -/
theorem s_at (b : Fin 4) (n k : Fin 4096) :
    val_main_v5 (F := Ideal) x0 x1 x2 (ix3 b n k) = Srow x2 (fun c' => Xof x0 b c' k) (Qf x1 (Xof x0 b)) n := by
  rw [val_main_v5_apply]
  unfold Srow
  refine Finset.sum_congr rfl fun d _ => ?_
  have e1 : lidx_main_v5 (ix3 b n k) d = ix3 b n d :=
    funext fun a => Fin.ext (by match a with | ⟨0, _⟩ => rfl | ⟨1, _⟩ => rfl | ⟨2, _⟩ => rfl)
  have e2 : ridx_main_v5 (ix3 b n k) d = ix3 b k d :=
    funext fun a => Fin.ext (by match a with | ⟨0, _⟩ => rfl | ⟨1, _⟩ => rfl | ⟨2, _⟩ => rfl)
  rw [e1, e2, q_at, k_at, mul_comm]

/-- The host's maximum over the queries is the largest score of key \`k\`. -/
theorem m6_at (b : Fin 4) (k : Fin 4096) :
    val_main_v6 (F := Ideal) x0 x1 x2 (ix2 b k) = Mrow x2 (fun c' => Xof x0 b c' k) (Qf x1 (Xof x0 b)) := by
  unfold val_main_v6 Mrow
  have h : S4x4096x4096.Reduces [1] S4x4096 := by decide
  refine (hostReduce_max_middle (val_main_v5 (F := Ideal) x0 x1 x2) (val_main_cst (F := Ideal))
    reducesTo_S4x4096x4096_S4x4096_d1 h h_S_ b k).trans ?_
  refine congrArg (Finset.fold max _ · Finset.univ) (funext fun n => ?_)
  exact s_at x0 x1 x2 b n k

/-- Taking the maximum once more against the word it started from changes nothing. -/
theorem m_at (b : Fin 4) (k : Fin 4096) :
    val_main_v8 (F := Ideal) x0 x1 x2 (ix2 b k) = Mrow x2 (fun c' => Xof x0 b c' k) (Qf x1 (Xof x0 b)) := by
  rw [val_main_v8_apply, val_main_v7_apply, val_main_cst_0_apply, m6_at, Ideal.maximumf_def, Ideal.ofBits_def]
  unfold Mrow
  exact max_eq_right ((Finset.le_fold_max _).2 (Or.inl le_rfl))

/-- The exponential of key \`k\`'s score at query \`n\`, taken from the largest. -/
theorem p_at (b : Fin 4) (n k : Fin 4096) :
    val_main_v12 (F := Ideal) x0 x1 x2 (ix3 b n k) = Prow x2 (fun c' => Xof x0 b c' k) (Qf x1 (Xof x0 b)) n := by
  have e : idx_main_v9 (idx_main_v10 (ix3 b n k)) = ix2 b k :=
    funext fun a => Fin.ext (by match a with | ⟨0, _⟩ => rfl | ⟨1, _⟩ => rfl)
  rw [val_main_v12_apply, val_main_v11_apply, val_main_v10_apply, val_main_v9_apply, e, m_at, s_at,
    Ideal.hostUnary_exp_def, Ideal.subf_def]
  rfl

/-- The sum of key \`k\`'s exponentials over the queries. -/
theorem l_at (b : Fin 4) (k : Fin 4096) :
    val_main_v13 (F := Ideal) x0 x1 x2 (ix2 b k) = Lrow x2 (fun c' => Xof x0 b c' k) (Qf x1 (Xof x0 b)) := by
  rw [val_main_v13_apply, val_main_cst_1_apply, Ideal.ofBits_def, Ideal.ofBits_zero_f32, zero_add]
  unfold Lrow
  refine Finset.sum_congr rfl fun n _ => ?_
  have e : idx_main_v13 (ix2 b k) n = ix3 b n k :=
    funext fun a => Fin.ext (by match a with | ⟨0, _⟩ => rfl | ⟨1, _⟩ => rfl | ⟨2, _⟩ => rfl)
  rw [e, p_at]

/-- The softmax weight of key \`k\` at query \`n\`. -/
theorem w_at (b : Fin 4) (n k : Fin 4096) :
    val_main_v16 (F := Ideal) x0 x1 x2 (ix3 b n k)
      = Ideal.div (Prow x2 (fun c' => Xof x0 b c' k) (Qf x1 (Xof x0 b)) n) (Lrow x2 (fun c' => Xof x0 b c' k) (Qf x1 (Xof x0 b))) := by
  have e : idx_main_v14 (idx_main_v15 (ix3 b n k)) = ix2 b k :=
    funext fun a => Fin.ext (by match a with | ⟨0, _⟩ => rfl | ⟨1, _⟩ => rfl)
  rw [val_main_v16_apply, val_main_v15_apply, val_main_v14_apply, e, l_at, p_at, Ideal.hostDivf_def]

/-- The attention sum over the keys. -/
theorem a_at (b : Fin 4) (n : Fin 4096) (c : Fin 256) :
    val_main_v17 (F := Ideal) x0 x1 x2 x3 (ix3 b n c) = Af x1 x2 x3 (Xof x0 b) c n := by
  rw [val_main_v17_apply]
  unfold Af term
  refine Finset.sum_congr rfl fun k _ => ?_
  have e1 : lidx_main_v17 (ix3 b n c) k = ix3 b n k :=
    funext fun a => Fin.ext (by match a with | ⟨0, _⟩ => rfl | ⟨1, _⟩ => rfl | ⟨2, _⟩ => rfl)
  have e2 : ridx_main_v17 (ix3 b n c) k = ix3 b k c :=
    funext fun a => Fin.ext (by match a with | ⟨0, _⟩ => rfl | ⟨1, _⟩ => rfl | ⟨2, _⟩ => rfl)
  rw [e1, e2, w_at, v_at, mul_comm]

/-- The block's output before the final transposition, at \`(b, n, c)\`. -/
theorem out_at (b : Fin 4) (n : Fin 4096) (c : Fin 256) :
    val_main_v21 (F := Ideal) x0 x1 x2 x3 x4 (ix3 b n c) = Outb (x4 (ix1 0)) x1 x2 x3 (Xof x0 b) c n := by
  have e : idx_main_v18 (idx_main_v19 (ix3 b n c)) = ix1 0 :=
    funext fun a => Fin.ext (by match a with | ⟨0, _⟩ => rfl)
  rw [val_main_v21_apply, val_main_v20_apply, val_main_v19_apply, val_main_v18_apply, e, a_at, xf_at,
    Ideal.addf_def, Ideal.mulf_def]
  rfl

/-- The reference's result is \`G\`. -/
theorem ref_eq :
    Cert.ReferenceIdeal.Read.val_main_v23 (F := Ideal) x0 x1 x2 x3 x4 = Cert.Attn.G x0 x1 x2 x3 x4 := by
  funext i
  obtain ⟨b, c, h, w, rfl⟩ : ∃ (b : Fin 4) (c : Fin 256) (h w : Fin 64), i = ix4 b c h w := ⟨i 0, i 1, i 2, i 3, eq_ix4 i⟩
  have hh : h.val < 64 := h.isLt
  have hw : w.val < 64 := w.isLt
  have hb : b.val < 4 := b.isLt
  have hc : c.val < 256 := c.isLt
  have e : idx_main_v22 (idx_main_v23 (ix4 b c h w)) = ix3 b (⟨64 * h.val + w.val, by omega⟩ : Fin 4096) c :=
    funext fun a => Fin.ext (by
      match a with
      | ⟨0, _⟩ => show (((b.val * 256 + c.val) * 64 + h.val) * 64 + w.val) / 1048576 = b.val; omega
      | ⟨1, _⟩ => show (((b.val * 256 + c.val) * 64 + h.val) * 64 + w.val) % 4096 = 64 * h.val + w.val; omega
      | ⟨2, _⟩ => show (((b.val * 256 + c.val) * 64 + h.val) * 64 + w.val) / 4096 % 256 = c.val; omega)
  rw [val_main_v23_apply, val_main_v22_apply, e, out_at]
  rfl

end Cert.Attn.Ref

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibLastAxis.lean ====
/-
  Two general facts over the extended reals, for any extents.

  * `max_last_apply`: a vector maximum of an `[a, b]` matrix along its LAST axis, read at row `p`, is the fold of
    `max` from the accumulator's value over the `b` lanes of that row (the companion of the last-axis sum and of
    the first-axis maximum).
  * `sum_mul_coe`: a finite sum of extended reals multiplied by a nonnegative REAL is the sum of the products,
    whatever the summands are — infinities of either sign included — because multiplication by a nonnegative
    finite factor distributes over every sum of two extended reals. It is what lets a positive scale move
    across a contraction without any finiteness of the operands.
-/
import Idealize.ShloMosaic.PureOps.Ideal.Laws
import Idealize.ShloMosaic.Lib.ValueIdx

noncomputable section

namespace Cert.LibLastAxis

open Idealize.ShloMosaic Idealize.ShloMosaic.ValueIdx

/-- A vector maximum along the last axis of a matrix, at row `p`: the fold of `max` from the accumulator's value
    over the lanes. -/
theorem max_last_apply {a b : ℕ} {φ : FTy} (x : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ x acc h hφ hacc (ix1 p)
      = (Finset.univ : Finset (Fin b)).fold max (Ideal.ofBits φ acc) fun k => x (ix2 p k) := by
  refine (Ideal.multiReduction_maximumf_single x acc h hφ hacc (ix1 p)).trans ?_
  refine congrArg (Finset.fold max (Ideal.ofBits φ acc) · Finset.univ) (funext fun k => ?_)
  exact congrArg x (funext fun c => Fin.ext (by match c with | ⟨0, _⟩ => rfl | ⟨1, _⟩ => rfl))

/-- A sum of extended reals times a nonnegative real is the sum of the products. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

end Cert.LibLastAxis

end
-- ==== Proof.Payloads.lean ====
/-
  The kernel body's arithmetic read entry by entry on the extended reals: each product into a zero accumulator is a
  plain sum over the contracted axis, a change of float format is the identity, a row maximum is a fold of `max`, a row
  sum a sum; and the eight unrolled chunks of each pass compute one and the same function.
-/
import proofs.«182164_j80702435492474_2_alg».proof.Proof.Gen.KernelIdeal.Skeleton
import proofs.«182164_j80702435492474_2_alg».proof.Proof.LibColumn
import proofs.«182164_j80702435492474_2_alg».proof.Proof.LibLastAxis
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

theorem mmQ_l (j : S64x4096.Idx) (q : dot_S256x64_S256x4096_S64x4096_0_0_1_1_n_n.contr.Idx) : (dot_S256x64_S256x4096_S64x4096_0_0_1_1_n_n.lhsIdx j q 1).val = (j 0).val := by
  unfold DotDims.lhsIdx
  rw [dif_neg (show ¬(1 : Fin S256x64.rank) ∈ dot_S256x64_S256x4096_S64x4096_0_0_1_1_n_n.lhsBatch by decide), dif_pos (show (1 : Fin S256x64.rank) ∈ dot_S256x64_S256x4096_S64x4096_0_0_1_1_n_n.lhsNonContracting by decide)]
  rfl
theorem mmQ_r (j : S64x4096.Idx) (q : dot_S256x64_S256x4096_S64x4096_0_0_1_1_n_n.contr.Idx) : (dot_S256x64_S256x4096_S64x4096_0_0_1_1_n_n.rhsIdx j q 1).val = (j 1).val := by
  unfold DotDims.rhsIdx
  rw [dif_neg (show ¬(1 : Fin S256x4096.rank) ∈ dot_S256x64_S256x4096_S64x4096_0_0_1_1_n_n.rhsBatch by decide), dif_pos (show (1 : Fin S256x4096.rank) ∈ dot_S256x64_S256x4096_S64x4096_0_0_1_1_n_n.rhsNonContracting by decide)]
  rfl
/-- The product `Q` into a zero accumulator, entry by entry, as a plain sum over the contracted axis. -/
theorem mmQ {φ₁ φ₂ : FTy} (l : FVec Ideal S256x64 φ₁) (r : FVec Ideal S256x4096 φ₂) (j : S64x4096.Idx) :
    matmul dot_S256x64_S256x4096_S64x4096_0_0_1_1_n_n none l r (constant S64x4096 .f32 0x00000000#32) j
      = ∑ k : Fin 256, (l (ix2 k (j 0)) : EReal) * (r (ix2 k (j 1)) : EReal) := by
  show FloatOps.matmul dot_S256x64_S256x4096_S64x4096_0_0_1_1_n_n none l r (constant S64x4096 .f32 0x00000000#32) j = _
  rw [Ideal.matmul_constant_zero_apply, ← Equiv.sum_comp (ValueIdx.contrEquiv1 dot_S256x64_S256x4096_S64x4096_0_0_1_1_n_n 256 rfl rfl).symm]
  refine Finset.sum_congr rfl fun k _ => ?_
  have hk := ValueIdx.contrEquiv1_symm_val dot_S256x64_S256x4096_S64x4096_0_0_1_1_n_n 256 rfl rfl k
  have el : dot_S256x64_S256x4096_S64x4096_0_0_1_1_n_n.lhsIdx j ((ValueIdx.contrEquiv1 dot_S256x64_S256x4096_S64x4096_0_0_1_1_n_n 256 rfl rfl).symm k) = ix2 k (j 0) := funext fun a => Fin.ext (by
    match a with
    | ⟨0, _⟩ => exact (dot_S256x64_S256x4096_S64x4096_0_0_1_1_n_n.lhsIdx_val_of_single rfl _ _).trans hk
    | ⟨1, _⟩ => exact mmQ_l _ _)
  have er : dot_S256x64_S256x4096_S64x4096_0_0_1_1_n_n.rhsIdx j ((ValueIdx.contrEquiv1 dot_S256x64_S256x4096_S64x4096_0_0_1_1_n_n 256 rfl rfl).symm k) = ix2 k (j 1) := funext fun a => Fin.ext (by
    match a with
    | ⟨0, _⟩ => exact (dot_S256x64_S256x4096_S64x4096_0_0_1_1_n_n.rhsIdx_val_of_single rfl _ _).trans hk
    | ⟨1, _⟩ => exact mmQ_r _ _)
  rw [el, er]
  rfl

theorem mmK_l (j : S64x256.Idx) (q : dot_S256x64_S256x256_S64x256_0_0_1_1_n_n.contr.Idx) : (dot_S256x64_S256x256_S64x256_0_0_1_1_n_n.lhsIdx j q 1).val = (j 0).val := by
  unfold DotDims.lhsIdx
  rw [dif_neg (show ¬(1 : Fin S256x64.rank) ∈ dot_S256x64_S256x256_S64x256_0_0_1_1_n_n.lhsBatch by decide), dif_pos (show (1 : Fin S256x64.rank) ∈ dot_S256x64_S256x256_S64x256_0_0_1_1_n_n.lhsNonContracting by decide)]
  rfl
theorem mmK_r (j : S64x256.Idx) (q : dot_S256x64_S256x256_S64x256_0_0_1_1_n_n.contr.Idx) : (dot_S256x64_S256x256_S64x256_0_0_1_1_n_n.rhsIdx j q 1).val = (j 1).val := by
  unfold DotDims.rhsIdx
  rw [dif_neg (show ¬(1 : Fin S256x256.rank) ∈ dot_S256x64_S256x256_S64x256_0_0_1_1_n_n.rhsBatch by decide), dif_pos (show (1 : Fin S256x256.rank) ∈ dot_S256x64_S256x256_S64x256_0_0_1_1_n_n.rhsNonContracting by decide)]
  rfl
/-- The product `K` into a zero accumulator, entry by entry, as a plain sum over the contracted axis. -/
theorem mmK {φ₁ φ₂ : FTy} (l : FVec Ideal S256x64 φ₁) (r : FVec Ideal S256x256 φ₂) (j : S64x256.Idx) :
    matmul dot_S256x64_S256x256_S64x256_0_0_1_1_n_n none l r (constant S64x256 .f32 0x00000000#32) j
      = ∑ k : Fin 256, (l (ix2 k (j 0)) : EReal) * (r (ix2 k (j 1)) : EReal) := by
  show FloatOps.matmul dot_S256x64_S256x256_S64x256_0_0_1_1_n_n none l r (constant S64x256 .f32 0x00000000#32) j = _
  rw [Ideal.matmul_constant_zero_apply, ← Equiv.sum_comp (ValueIdx.contrEquiv1 dot_S256x64_S256x256_S64x256_0_0_1_1_n_n 256 rfl rfl).symm]
  refine Finset.sum_congr rfl fun k _ => ?_
  have hk := ValueIdx.contrEquiv1_symm_val dot_S256x64_S256x256_S64x256_0_0_1_1_n_n 256 rfl rfl k
  have el : dot_S256x64_S256x256_S64x256_0_0_1_1_n_n.lhsIdx j ((ValueIdx.contrEquiv1 dot_S256x64_S256x256_S64x256_0_0_1_1_n_n 256 rfl rfl).symm k) = ix2 k (j 0) := funext fun a => Fin.ext (by
    match a with
    | ⟨0, _⟩ => exact (dot_S256x64_S256x256_S64x256_0_0_1_1_n_n.lhsIdx_val_of_single rfl _ _).trans hk
    | ⟨1, _⟩ => exact mmK_l _ _)
  have er : dot_S256x64_S256x256_S64x256_0_0_1_1_n_n.rhsIdx j ((ValueIdx.contrEquiv1 dot_S256x64_S256x256_S64x256_0_0_1_1_n_n 256 rfl rfl).symm k) = ix2 k (j 1) := funext fun a => Fin.ext (by
    match a with
    | ⟨0, _⟩ => exact (dot_S256x64_S256x256_S64x256_0_0_1_1_n_n.rhsIdx_val_of_single rfl _ _).trans hk
    | ⟨1, _⟩ => exact mmK_r _ _)
  rw [el, er]
  rfl

theorem mmV_l (j : S256x256.Idx) (q : dot_S256x256_S256x256_S256x256_0_0_1_1_n_n.contr.Idx) : (dot_S256x256_S256x256_S256x256_0_0_1_1_n_n.lhsIdx j q 1).val = (j 0).val := by
  unfold DotDims.lhsIdx
  rw [dif_neg (show ¬(1 : Fin S256x256.rank) ∈ dot_S256x256_S256x256_S256x256_0_0_1_1_n_n.lhsBatch by decide), dif_pos (show (1 : Fin S256x256.rank) ∈ dot_S256x256_S256x256_S256x256_0_0_1_1_n_n.lhsNonContracting by decide)]
  rfl
theorem mmV_r (j : S256x256.Idx) (q : dot_S256x256_S256x256_S256x256_0_0_1_1_n_n.contr.Idx) : (dot_S256x256_S256x256_S256x256_0_0_1_1_n_n.rhsIdx j q 1).val = (j 1).val := by
  unfold DotDims.rhsIdx
  rw [dif_neg (show ¬(1 : Fin S256x256.rank) ∈ dot_S256x256_S256x256_S256x256_0_0_1_1_n_n.rhsBatch by decide), dif_pos (show (1 : Fin S256x256.rank) ∈ dot_S256x256_S256x256_S256x256_0_0_1_1_n_n.rhsNonContracting by decide)]
  rfl
/-- The product `V` into a zero accumulator, entry by entry, as a plain sum over the contracted axis. -/
theorem mmV {φ₁ φ₂ : FTy} (l : FVec Ideal S256x256 φ₁) (r : FVec Ideal S256x256 φ₂) (j : S256x256.Idx) :
    matmul dot_S256x256_S256x256_S256x256_0_0_1_1_n_n none l r (constant S256x256 .f32 0x00000000#32) j
      = ∑ k : Fin 256, (l (ix2 k (j 0)) : EReal) * (r (ix2 k (j 1)) : EReal) := by
  show FloatOps.matmul dot_S256x256_S256x256_S256x256_0_0_1_1_n_n none l r (constant S256x256 .f32 0x00000000#32) j = _
  rw [Ideal.matmul_constant_zero_apply, ← Equiv.sum_comp (ValueIdx.contrEquiv1 dot_S256x256_S256x256_S256x256_0_0_1_1_n_n 256 rfl rfl).symm]
  refine Finset.sum_congr rfl fun k _ => ?_
  have hk := ValueIdx.contrEquiv1_symm_val dot_S256x256_S256x256_S256x256_0_0_1_1_n_n 256 rfl rfl k
  have el : dot_S256x256_S256x256_S256x256_0_0_1_1_n_n.lhsIdx j ((ValueIdx.contrEquiv1 dot_S256x256_S256x256_S256x256_0_0_1_1_n_n 256 rfl rfl).symm k) = ix2 k (j 0) := funext fun a => Fin.ext (by
    match a with
    | ⟨0, _⟩ => exact (dot_S256x256_S256x256_S256x256_0_0_1_1_n_n.lhsIdx_val_of_single rfl _ _).trans hk
    | ⟨1, _⟩ => exact mmV_l _ _)
  have er : dot_S256x256_S256x256_S256x256_0_0_1_1_n_n.rhsIdx j ((ValueIdx.contrEquiv1 dot_S256x256_S256x256_S256x256_0_0_1_1_n_n 256 rfl rfl).symm k) = ix2 k (j 1) := funext fun a => Fin.ext (by
    match a with
    | ⟨0, _⟩ => exact (dot_S256x256_S256x256_S256x256_0_0_1_1_n_n.rhsIdx_val_of_single rfl _ _).trans hk
    | ⟨1, _⟩ => exact mmV_r _ _)
  rw [el, er]
  rfl

theorem mmS_l (j : S256x512.Idx) (q : dot_S64x256_S64x512_S256x512_0_0_1_1_n_n.contr.Idx) : (dot_S64x256_S64x512_S256x512_0_0_1_1_n_n.lhsIdx j q 1).val = (j 0).val := by
  unfold DotDims.lhsIdx
  rw [dif_neg (show ¬(1 : Fin S64x256.rank) ∈ dot_S64x256_S64x512_S256x512_0_0_1_1_n_n.lhsBatch by decide), dif_pos (show (1 : Fin S64x256.rank) ∈ dot_S64x256_S64x512_S256x512_0_0_1_1_n_n.lhsNonContracting by decide)]
  rfl
theorem mmS_r (j : S256x512.Idx) (q : dot_S64x256_S64x512_S256x512_0_0_1_1_n_n.contr.Idx) : (dot_S64x256_S64x512_S256x512_0_0_1_1_n_n.rhsIdx j q 1).val = (j 1).val := by
  unfold DotDims.rhsIdx
  rw [dif_neg (show ¬(1 : Fin S64x512.rank) ∈ dot_S64x256_S64x512_S256x512_0_0_1_1_n_n.rhsBatch by decide), dif_pos (show (1 : Fin S64x512.rank) ∈ dot_S64x256_S64x512_S256x512_0_0_1_1_n_n.rhsNonContracting by decide)]
  rfl
/-- The product `S` into a zero accumulator, entry by entry, as a plain sum over the contracted axis. -/
theorem mmS {φ₁ φ₂ : FTy} (l : FVec Ideal S64x256 φ₁) (r : FVec Ideal S64x512 φ₂) (j : S256x512.Idx) :
    matmul dot_S64x256_S64x512_S256x512_0_0_1_1_n_n none l r (constant S256x512 .f32 0x00000000#32) j
      = ∑ k : Fin 64, (l (ix2 k (j 0)) : EReal) * (r (ix2 k (j 1)) : EReal) := by
  show FloatOps.matmul dot_S64x256_S64x512_S256x512_0_0_1_1_n_n none l r (constant S256x512 .f32 0x00000000#32) j = _
  rw [Ideal.matmul_constant_zero_apply, ← Equiv.sum_comp (ValueIdx.contrEquiv1 dot_S64x256_S64x512_S256x512_0_0_1_1_n_n 64 rfl rfl).symm]
  refine Finset.sum_congr rfl fun k _ => ?_
  have hk := ValueIdx.contrEquiv1_symm_val dot_S64x256_S64x512_S256x512_0_0_1_1_n_n 64 rfl rfl k
  have el : dot_S64x256_S64x512_S256x512_0_0_1_1_n_n.lhsIdx j ((ValueIdx.contrEquiv1 dot_S64x256_S64x512_S256x512_0_0_1_1_n_n 64 rfl rfl).symm k) = ix2 k (j 0) := funext fun a => Fin.ext (by
    match a with
    | ⟨0, _⟩ => exact (dot_S64x256_S64x512_S256x512_0_0_1_1_n_n.lhsIdx_val_of_single rfl _ _).trans hk
    | ⟨1, _⟩ => exact mmS_l _ _)
  have er : dot_S64x256_S64x512_S256x512_0_0_1_1_n_n.rhsIdx j ((ValueIdx.contrEquiv1 dot_S64x256_S64x512_S256x512_0_0_1_1_n_n 64 rfl rfl).symm k) = ix2 k (j 1) := funext fun a => Fin.ext (by
    match a with
    | ⟨0, _⟩ => exact (dot_S64x256_S64x512_S256x512_0_0_1_1_n_n.rhsIdx_val_of_single rfl _ _).trans hk
    | ⟨1, _⟩ => exact mmS_r _ _)
  rw [el, er]
  rfl

theorem mmC_l (j : S256x512.Idx) (q : dot_S256x256_S256x512_S256x512_1_0_0_1_n_n.contr.Idx) : (dot_S256x256_S256x512_S256x512_1_0_0_1_n_n.lhsIdx j q 0).val = (j 0).val := by
  unfold DotDims.lhsIdx
  rw [dif_neg (show ¬(0 : Fin S256x256.rank) ∈ dot_S256x256_S256x512_S256x512_1_0_0_1_n_n.lhsBatch by decide), dif_pos (show (0 : Fin S256x256.rank) ∈ dot_S256x256_S256x512_S256x512_1_0_0_1_n_n.lhsNonContracting by decide)]
  rfl
theorem mmC_r (j : S256x512.Idx) (q : dot_S256x256_S256x512_S256x512_1_0_0_1_n_n.contr.Idx) : (dot_S256x256_S256x512_S256x512_1_0_0_1_n_n.rhsIdx j q 1).val = (j 1).val := by
  unfold DotDims.rhsIdx
  rw [dif_neg (show ¬(1 : Fin S256x512.rank) ∈ dot_S256x256_S256x512_S256x512_1_0_0_1_n_n.rhsBatch by decide), dif_pos (show (1 : Fin S256x512.rank) ∈ dot_S256x256_S256x512_S256x512_1_0_0_1_n_n.rhsNonContracting by decide)]
  rfl
/-- The product `C` into a zero accumulator, entry by entry, as a plain sum over the contracted axis. -/
theorem mmC {φ₁ φ₂ : FTy} (l : FVec Ideal S256x256 φ₁) (r : FVec Ideal S256x512 φ₂) (j : S256x512.Idx) :
    matmul dot_S256x256_S256x512_S256x512_1_0_0_1_n_n none l r (constant S256x512 .f32 0x00000000#32) j
      = ∑ k : Fin 256, (l (ix2 (j 0) k) : EReal) * (r (ix2 k (j 1)) : EReal) := by
  show FloatOps.matmul dot_S256x256_S256x512_S256x512_1_0_0_1_n_n none l r (constant S256x512 .f32 0x00000000#32) j = _
  rw [Ideal.matmul_constant_zero_apply, ← Equiv.sum_comp (ValueIdx.contrEquiv1 dot_S256x256_S256x512_S256x512_1_0_0_1_n_n 256 rfl rfl).symm]
  refine Finset.sum_congr rfl fun k _ => ?_
  have hk := ValueIdx.contrEquiv1_symm_val dot_S256x256_S256x512_S256x512_1_0_0_1_n_n 256 rfl rfl k
  have el : dot_S256x256_S256x512_S256x512_1_0_0_1_n_n.lhsIdx j ((ValueIdx.contrEquiv1 dot_S256x256_S256x512_S256x512_1_0_0_1_n_n 256 rfl rfl).symm k) = ix2 (j 0) k := funext fun a => Fin.ext (by
    match a with
    | ⟨1, _⟩ => exact (dot_S256x256_S256x512_S256x512_1_0_0_1_n_n.lhsIdx_val_of_single rfl _ _).trans hk
    | ⟨0, _⟩ => exact mmC_l _ _)
  have er : dot_S256x256_S256x512_S256x512_1_0_0_1_n_n.rhsIdx j ((ValueIdx.contrEquiv1 dot_S256x256_S256x512_S256x512_1_0_0_1_n_n 256 rfl rfl).symm k) = ix2 k (j 1) := funext fun a => Fin.ext (by
    match a with
    | ⟨0, _⟩ => exact (dot_S256x256_S256x512_S256x512_1_0_0_1_n_n.rhsIdx_val_of_single rfl _ _).trans hk
    | ⟨1, _⟩ => exact mmC_r _ _)
  rw [el, er]
  rfl

/-! ## The body's arithmetic, entry by entry, on the extended reals -/

theorem exp_apply' {s : Shape} {φ : FTy} (v : FVec Ideal s φ) (i : s.Idx) : exp v i = Ideal.exp (v i) := rfl

/-- The query projection: entry `(d, n)` is the sum over the channels of the weight times the input. -/
theorem pay2_apply (x0 : Vec Ideal S1x256x4096 .f32) (x1 : Vec Ideal S256x64 .f32) (d : Fin 64) (n : Fin 4096) :
    k0_pay2 x0 x1 (ix2 d n) = ∑ c : Fin 256, (x1 (ix2 c d) : EReal) * (x0 (ix3 (0 : Fin 1) c n) : EReal) := by
  unfold k0_pay2
  (try dsimp only)
  rw [shapeCast_self, truncf_apply]
  refine (mmQ _ _ (ix2 d n)).trans (Finset.sum_congr rfl fun c _ => ?_)
  rw [truncf_apply, truncf_apply, shapeCast_1ab_ab_apply]

/-- The key projection of a block of 256 positions. -/
theorem pay5_apply (v6 : Vec Ideal S1x256x256 .f32) (v9 : Vec Ideal S256x64 .f32) (d : Fin 64) (kk : Fin 256) :
    k0_pay5 v6 v9 (ix2 d kk) = ∑ c : Fin 256, (v9 (ix2 c d) : EReal) * (v6 (ix3 (0 : Fin 1) c kk) : EReal) := by
  unfold k0_pay5 k0_pay4
  (try dsimp only)
  rw [truncf_apply]
  refine (mmK _ _ (ix2 d kk)).trans (Finset.sum_congr rfl fun c _ => ?_)
  rw [truncf_apply, truncf_apply, shapeCast_1ab_ab_apply]

/-- The value projection of a block of 256 positions. -/
theorem pay6_apply (v6 : Vec Ideal S1x256x256 .f32) (v12 : Vec Ideal S256x256 .f32) (c' : Fin 256) (kk : Fin 256) :
    k0_pay6 v6 v12 (ix2 c' kk) = ∑ c : Fin 256, (v12 (ix2 c c') : EReal) * (v6 (ix3 (0 : Fin 1) c kk) : EReal) := by
  unfold k0_pay6 k0_pay4
  (try dsimp only)
  rw [truncf_apply]
  refine (mmV _ _ (ix2 c' kk)).trans (Finset.sum_congr rfl fun c _ => ?_)
  rw [truncf_apply, truncf_apply, shapeCast_1ab_ab_apply]

/-- The scores of a block of keys against a chunk of 512 queries. -/
theorem pay9_apply (K : FVec Ideal S64x256 .bf16) (q : Vec Ideal S64x512 .bf16) (kk : Fin 256) (n' : Fin 512) :
    k0_pay9 K q (ix2 kk n') = ∑ d : Fin 64, (K (ix2 d kk) : EReal) * (q (ix2 d n') : EReal) := by
  unfold k0_pay9
  (try dsimp only)
  rw [shapeCast_self]
  exact mmS _ _ (ix2 kk n')

/-- The exponentials of the scores, each row taken from its largest entry. -/
theorem pay15_apply (s s' : Vec Ideal S256x4096 .f32) (kk : Fin 256) (n : Fin 4096) :
    k0_pay15 s s' (ix2 kk n)
      = Ideal.exp ((s' (ix2 kk n) : EReal)
          - (Finset.univ : Finset (Fin 4096)).fold max (Ideal.ofBits .f32 0xFF800000#32) fun n' => s (ix2 kk n')) := by
  unfold k0_pay15
  (try dsimp only)
  rw [shapeCast_self, exp_apply', subf_apply]
  refine congrArg (fun z => Ideal.exp ((s' (ix2 kk n) : EReal) - z)) ?_
  exact (Cert.LibColumn.broadcastTo_a1_ab_apply _ _ kk n).trans
    ((Cert.LibColumn.shapeCast_a_a1_apply _ _ kk 0).trans (Cert.LibLastAxis.max_last_apply s _ _ _ _ kk))

/-- The sum of a row of exponentials. -/
theorem pay16_apply (p : Vec Ideal S256x4096 .f32) (kk : Fin 256) :
    k0_pay16 p (ix2 kk (0 : Fin 1)) = ∑ n : Fin 4096, (p (ix2 kk n) : EReal) := by
  unfold k0_pay16
  (try dsimp only)
  exact (Cert.LibColumn.shapeCast_a_a1_apply _ _ kk 0).trans (Cert.LibColumn.sum_last_apply p _ _ _ kk)

/-- One chunk of the accumulator after a block of keys: what it held plus, for each key of the block, the value entry
    times the normalised exponential. -/
theorem pay17_apply (V : FVec Ideal S256x256 .bf16) (Lc : FVec Ideal S256x1 .f32) (p a : Vec Ideal S256x512 .f32)
    (c : Fin 256) (n' : Fin 512) :
    k0_pay17 V Lc p a (ix2 c n')
      = (a (ix2 c n') : EReal) + ∑ kk : Fin 256, (V (ix2 c kk) : EReal) * Ideal.div (p (ix2 kk n')) (Lc (ix2 kk (0 : Fin 1))) := by
  unfold k0_pay17
  (try dsimp only)
  rw [shapeCast_self, addf_apply]
  refine congrArg (fun z => (a (ix2 c n') : EReal) + z) ((mmC _ _ (ix2 c n')).trans (Finset.sum_congr rfl fun kk _ => ?_))
  rw [truncf_apply, divf_apply, Cert.LibColumn.broadcastTo_a1_ab_apply]

/-- The zero block the accumulator starts from. -/
theorem pay3_apply (i : S256x4096.Idx) : k0_pay3 (F := Ideal) i = 0 := by
  unfold k0_pay3
  (try dsimp only)
  rw [shapeCast_self, broadcast_apply]
  exact Ideal.ofBits_zero_f32

/-- The output block: the scale times the accumulator, plus the input. -/
theorem pay1_apply (g : Vec Ideal S1x1 .f32) (acc : Vec Ideal S256x4096 .f32) (x : Vec Ideal S1x256x4096 .f32)
    (u : Fin 1) (c : Fin 256) (n : Fin 4096) :
    k0_pay1 g acc x (ix3 u c n) = (g (ix2 (0 : Fin 1) (0 : Fin 1)) : EReal) * acc (ix2 c n) + x (ix3 (0 : Fin 1) c n) := by
  unfold k0_pay1
  (try dsimp only)
  rw [shapeCast_ab_1ab_apply, addf_apply, mulf_apply, shapeCast_1ab_ab_apply, shapeCast_self]
  congr 2
  exact broadcastTo_apply _ _ _ _ (fun a => by match a with | ⟨0, _⟩ => rfl | ⟨1, _⟩ => rfl)

/-! ## The unrolled chunks are one function -/

theorem pay7_eq {F : FTy → Type} [FloatOps F] (v6 : Vec F S1x256x256 .f32) (v9 : Vec F S256x64 .f32) (q : Vec F S64x512 .bf16) :
    k0_pay7 v6 v9 q = k0_pay9 (k0_pay5 v6 v9) q := rfl
theorem pay8_eq {F : FTy → Type} [FloatOps F] (v6 : Vec F S1x256x256 .f32) (v9 : Vec F S256x64 .f32) (q : Vec F S64x512 .bf16) :
    k0_pay8 v6 v9 q = k0_pay9 (k0_pay5 v6 v9) q := rfl
theorem pay10_eq {F : FTy → Type} [FloatOps F] : @k0_pay10 F _ = k0_pay9 := rfl
theorem pay11_eq {F : FTy → Type} [FloatOps F] : @k0_pay11 F _ = k0_pay9 := rfl
theorem pay12_eq {F : FTy → Type} [FloatOps F] : @k0_pay12 F _ = k0_pay9 := rfl
theorem pay13_eq {F : FTy → Type} [FloatOps F] : @k0_pay13 F _ = k0_pay9 := rfl
theorem pay14_eq {F : FTy → Type} [FloatOps F] : @k0_pay14 F _ = k0_pay9 := rfl
theorem pay18_eq {F : FTy → Type} [FloatOps F] : @k0_pay18 F _ = k0_pay17 := rfl
theorem pay21_eq {F : FTy → Type} [FloatOps F] : @k0_pay21 F _ = k0_pay17 := rfl
theorem pay22_eq {F : FTy → Type} [FloatOps F] : @k0_pay22 F _ = k0_pay17 := rfl
theorem pay25_eq {F : FTy → Type} [FloatOps F] : @k0_pay25 F _ = k0_pay17 := rfl
theorem pay26_eq {F : FTy → Type} [FloatOps F] : @k0_pay26 F _ = k0_pay17 := rfl
theorem pay20_eq {F : FTy → Type} [FloatOps F] (V : FVec F S256x256 .bf16) (Lc : FVec F S256x1 .f32) (p a : Vec F S256x512 .f32) :
    k0_pay20 (k0_pay19 V Lc p a) = k0_pay17 V Lc p a := rfl
theorem pay24_eq {F : FTy → Type} [FloatOps F] (V : FVec F S256x256 .bf16) (Lc : FVec F S256x1 .f32) (p a : Vec F S256x512 .f32) :
    k0_pay24 (k0_pay23 V Lc p) a = k0_pay17 V Lc p a := rfl

end Cert.KernelIdeal.Pay
end
-- ==== Proof.Chunks.lean ====
/-
  A 256 × 4096 buffer filled by eight stores of 256 × 512 column chunks holds one function `G` of its index as soon as
  each chunk's payload is `G` at the place the chunk's entry goes: entry `(r, n')` of the chunk that starts at column `o`
  goes to `(r, o + n')`.  The same holds when other stores were made before the eight (they are all overwritten), and a
  load of one chunk made after some of the other chunks were stored does not see them.
-/
import proofs.«182164_j80702435492474_2_alg».proof.Proof.Gen.KernelIdeal.Skeleton
import Idealize.ShloMosaic.Lib.Pipeline.Value
import Idealize.ShloMosaic.Lib.Pipeline.CanonAppend
import Idealize.ShloMosaic.Lib.Ring
import Idealize.ShloMosaic.Lib.Tactic
import Idealize.ShloMosaic.Lib.ValueIdx

set_option maxRecDepth 16384

noncomputable section

namespace Cert.KernelIdeal.Chunks

open Idealize.ShloMosaic Idealize.ShloMosaic.ValueIdx Cert.KernelIdeal

variable {Val : EltTy → Type} [∀ e, Nonempty (Val e)] {e : EltTy}

theorem hz2 : (![0, 0] : Fin 2 → Nat) = fun _ => 0 := funext fun a => by fin_cases a <;> rfl
theorem hz3 : (![0, 0, 0] : Fin 3 → Nat) = fun _ => 0 := funext fun a => by fin_cases a <;> rfl

/-- Entry `(r, n')` of the column chunk starting at column `o` is entry `(r, o + n')` of the buffer. -/
theorem emb_chunk {R : ℕ} (o : ℕ) (inb : ∀ a, (![0, o] : Fin 2 → ℕ) a + (![R, 512] : Fin 2 → ℕ) a ≤ (⟨2, ![R, 4096]⟩ : Shape).size a)
    (r : Fin R) (n' : Fin 512) (h : o + n'.val < 4096) :
    (Rect.unit (s := (⟨2, ![R, 4096]⟩ : Shape)) ![0, o] ![R, 512] inb).emb (ix2 r n') = ix2 r ⟨o + n'.val, h⟩ := by
  funext a
  apply Fin.ext
  match a with
  | ⟨0, _⟩ => show 0 + 1 * r.val = r.val; omega
  | ⟨1, _⟩ => show o + 1 * n'.val = o + n'.val; omega

/-- A load through the chunk's rectangle reads the same entries. -/
theorem ld_chunk {R : ℕ} {α : Type} (X : (⟨2, ![R, 4096]⟩ : Shape).Idx → α) (o : ℕ)
    (inb : ∀ a, (![0, o] : Fin 2 → ℕ) a + (![R, 512] : Fin 2 → ℕ) a ≤ (⟨2, ![R, 4096]⟩ : Shape).size a)
    (r : Fin R) (n' : Fin 512) (h : o + n'.val < 4096) :
    X ((Rect.unit (s := (⟨2, ![R, 4096]⟩ : Shape)) ![0, o] ![R, 512] inb).idx (ix2 r n')) = X (ix2 r ⟨o + n'.val, h⟩) :=
  congrArg X (emb_chunk o inb r n' h)

/-- Eight chunk stores, made after any others, leave `G`. -/
theorem canon8 (G : S256x4096.Idx → Val e) (L' : List (View.Piece Val S256x4096 e))
    (inb0 : ∀ a, (![0, 0] : Fin 2 → ℕ) a + (![256, 512] : Fin 2 → ℕ) a ≤ S256x4096.size a) (inb1 : ∀ a, (![0, 512] : Fin 2 → ℕ) a + (![256, 512] : Fin 2 → ℕ) a ≤ S256x4096.size a) (inb2 : ∀ a, (![0, 1024] : Fin 2 → ℕ) a + (![256, 512] : Fin 2 → ℕ) a ≤ S256x4096.size a) (inb3 : ∀ a, (![0, 1536] : Fin 2 → ℕ) a + (![256, 512] : Fin 2 → ℕ) a ≤ S256x4096.size a) (inb4 : ∀ a, (![0, 2048] : Fin 2 → ℕ) a + (![256, 512] : Fin 2 → ℕ) a ≤ S256x4096.size a) (inb5 : ∀ a, (![0, 2560] : Fin 2 → ℕ) a + (![256, 512] : Fin 2 → ℕ) a ≤ S256x4096.size a) (inb6 : ∀ a, (![0, 3072] : Fin 2 → ℕ) a + (![256, 512] : Fin 2 → ℕ) a ≤ S256x4096.size a) (inb7 : ∀ a, (![0, 3584] : Fin 2 → ℕ) a + (![256, 512] : Fin 2 → ℕ) a ≤ S256x4096.size a)
    (w0 : S256x512.Idx → Val e) (w1 : S256x512.Idx → Val e) (w2 : S256x512.Idx → Val e) (w3 : S256x512.Idx → Val e) (w4 : S256x512.Idx → Val e) (w5 : S256x512.Idx → Val e) (w6 : S256x512.Idx → Val e) (w7 : S256x512.Idx → Val e)
    (h0 : ∀ (r : Fin 256) (n' : Fin 512) (h : 0 + n'.val < 4096), w0 (ix2 r n') = G (ix2 r ⟨0 + n'.val, h⟩))
    (h1 : ∀ (r : Fin 256) (n' : Fin 512) (h : 512 + n'.val < 4096), w1 (ix2 r n') = G (ix2 r ⟨512 + n'.val, h⟩))
    (h2 : ∀ (r : Fin 256) (n' : Fin 512) (h : 1024 + n'.val < 4096), w2 (ix2 r n') = G (ix2 r ⟨1024 + n'.val, h⟩))
    (h3 : ∀ (r : Fin 256) (n' : Fin 512) (h : 1536 + n'.val < 4096), w3 (ix2 r n') = G (ix2 r ⟨1536 + n'.val, h⟩))
    (h4 : ∀ (r : Fin 256) (n' : Fin 512) (h : 2048 + n'.val < 4096), w4 (ix2 r n') = G (ix2 r ⟨2048 + n'.val, h⟩))
    (h5 : ∀ (r : Fin 256) (n' : Fin 512) (h : 2560 + n'.val < 4096), w5 (ix2 r n') = G (ix2 r ⟨2560 + n'.val, h⟩))
    (h6 : ∀ (r : Fin 256) (n' : Fin 512) (h : 3072 + n'.val < 4096), w6 (ix2 r n') = G (ix2 r ⟨3072 + n'.val, h⟩))
    (h7 : ∀ (r : Fin 256) (n' : Fin 512) (h : 3584 + n'.val < 4096), w7 (ix2 r n') = G (ix2 r ⟨3584 + n'.val, h⟩)) :
    View.canon ((⟨Rect.unit ![0, 3584] ![256, 512] inb7, w7⟩ : View.Piece Val S256x4096 e) :: (⟨Rect.unit ![0, 3072] ![256, 512] inb6, w6⟩ : View.Piece Val S256x4096 e) :: (⟨Rect.unit ![0, 2560] ![256, 512] inb5, w5⟩ : View.Piece Val S256x4096 e) :: (⟨Rect.unit ![0, 2048] ![256, 512] inb4, w4⟩ : View.Piece Val S256x4096 e) :: (⟨Rect.unit ![0, 1536] ![256, 512] inb3, w3⟩ : View.Piece Val S256x4096 e) :: (⟨Rect.unit ![0, 1024] ![256, 512] inb2, w2⟩ : View.Piece Val S256x4096 e) :: (⟨Rect.unit ![0, 512] ![256, 512] inb1, w1⟩ : View.Piece Val S256x4096 e) :: (⟨Rect.unit ![0, 0] ![256, 512] inb0, w0⟩ : View.Piece Val S256x4096 e) :: L') = G := by
  funext y
  refine View.canon_append_of_pieces G L' [⟨Rect.unit ![0, 3584] ![256, 512] inb7, w7⟩, ⟨Rect.unit ![0, 3072] ![256, 512] inb6, w6⟩, ⟨Rect.unit ![0, 2560] ![256, 512] inb5, w5⟩, ⟨Rect.unit ![0, 2048] ![256, 512] inb4, w4⟩, ⟨Rect.unit ![0, 1536] ![256, 512] inb3, w3⟩, ⟨Rect.unit ![0, 1024] ![256, 512] inb2, w2⟩, ⟨Rect.unit ![0, 512] ![256, 512] inb1, w1⟩, ⟨Rect.unit ![0, 0] ![256, 512] inb0, w0⟩] ?_ y
    (View.cover_of_tiledL (s := S256x4096) _ ![256, 512] (by sl_kernel_rfl) y)
  intro p hp x
  simp only [List.mem_cons, List.not_mem_nil, or_false] at hp
  rcases hp with rfl | rfl | rfl | rfl | rfl | rfl | rfl | rfl
  · obtain ⟨r, n', rfl⟩ : ∃ (r : Fin 256) (n' : Fin 512), x = (ix2 r n' : S256x512.Idx) := ⟨x 0, x 1, eq_ix2 (n0 := 256) (n1 := 512) x⟩
    have hn := n'.isLt
    exact (h7 r n' (by omega)).trans (congrArg G (emb_chunk 3584 inb7 r n' (by omega)).symm)
  · obtain ⟨r, n', rfl⟩ : ∃ (r : Fin 256) (n' : Fin 512), x = (ix2 r n' : S256x512.Idx) := ⟨x 0, x 1, eq_ix2 (n0 := 256) (n1 := 512) x⟩
    have hn := n'.isLt
    exact (h6 r n' (by omega)).trans (congrArg G (emb_chunk 3072 inb6 r n' (by omega)).symm)
  · obtain ⟨r, n', rfl⟩ : ∃ (r : Fin 256) (n' : Fin 512), x = (ix2 r n' : S256x512.Idx) := ⟨x 0, x 1, eq_ix2 (n0 := 256) (n1 := 512) x⟩
    have hn := n'.isLt
    exact (h5 r n' (by omega)).trans (congrArg G (emb_chunk 2560 inb5 r n' (by omega)).symm)
  · obtain ⟨r, n', rfl⟩ : ∃ (r : Fin 256) (n' : Fin 512), x = (ix2 r n' : S256x512.Idx) := ⟨x 0, x 1, eq_ix2 (n0 := 256) (n1 := 512) x⟩
    have hn := n'.isLt
    exact (h4 r n' (by omega)).trans (congrArg G (emb_chunk 2048 inb4 r n' (by omega)).symm)
  · obtain ⟨r, n', rfl⟩ : ∃ (r : Fin 256) (n' : Fin 512), x = (ix2 r n' : S256x512.Idx) := ⟨x 0, x 1, eq_ix2 (n0 := 256) (n1 := 512) x⟩
    have hn := n'.isLt
    exact (h3 r n' (by omega)).trans (congrArg G (emb_chunk 1536 inb3 r n' (by omega)).symm)
  · obtain ⟨r, n', rfl⟩ : ∃ (r : Fin 256) (n' : Fin 512), x = (ix2 r n' : S256x512.Idx) := ⟨x 0, x 1, eq_ix2 (n0 := 256) (n1 := 512) x⟩
    have hn := n'.isLt
    exact (h2 r n' (by omega)).trans (congrArg G (emb_chunk 1024 inb2 r n' (by omega)).symm)
  · obtain ⟨r, n', rfl⟩ : ∃ (r : Fin 256) (n' : Fin 512), x = (ix2 r n' : S256x512.Idx) := ⟨x 0, x 1, eq_ix2 (n0 := 256) (n1 := 512) x⟩
    have hn := n'.isLt
    exact (h1 r n' (by omega)).trans (congrArg G (emb_chunk 512 inb1 r n' (by omega)).symm)
  · obtain ⟨r, n', rfl⟩ : ∃ (r : Fin 256) (n' : Fin 512), x = (ix2 r n' : S256x512.Idx) := ⟨x 0, x 1, eq_ix2 (n0 := 256) (n1 := 512) x⟩
    have hn := n'.isLt
    exact (h0 r n' (by omega)).trans (congrArg G (emb_chunk 0 inb0 r n' (by omega)).symm)

end Cert.KernelIdeal.Chunks

end
-- ==== Proof.Block.lean ====
/-
  One block of 256 keys, on the extended reals.

  `Sfun K Qv` is the block's scores against every query, `Pfun` their exponentials (each row taken from its largest
  score), and `stepFun V Lc P A` the accumulator `A` after the block: at channel `c` and query `n` it gains, for each key
  `kk` of the block, the value entry `V c kk` times `P kk n / Lc kk`.

  The body computes the scores and the new accumulator in eight chunks of 512 queries, through a scratch buffer: the eight
  score chunks read back as `Sfun` (`scores_read`), and the eight accumulator chunks leave `stepFun` (`acc_canon_lit`,
  `acc_read_lit`).  In the terms of the specification a block's key `kk` is the position whose column is the block's
  column `kk`, and the step adds the 256 contributions `Attn.term` of those positions (`step_apply`).
-/
import proofs.«182164_j80702435492474_2_alg».proof.Proof.Gen.KernelIdeal.Skeleton
import proofs.«182164_j80702435492474_2_alg».proof.Proof.Payloads
import proofs.«182164_j80702435492474_2_alg».proof.Proof.Chunks
import proofs.«182164_j80702435492474_2_alg».proof.Proof.Spec
import Idealize.ShloMosaic.Lib.Pipeline.Value

set_option maxRecDepth 16384

noncomputable section

namespace Cert.KernelIdeal.Block

open Idealize.ShloMosaic Idealize.ShloMosaic.TcCoe Idealize.ShloMosaic.ValueIdx
open Cert.KernelIdeal Cert.KernelIdeal.Gen Cert.KernelIdeal.Pay Cert.KernelIdeal.Chunks

/-- The scores of a block of 256 keys with key vectors `K` against every query. -/
def Sfun (K : FVec Ideal S64x256 .bf16) (Qv : Vec Ideal S64x4096 .bf16) : Vec Ideal S256x4096 .f32 :=
  fun y => ∑ d : Fin 64, (K (ix2 d (y 0)) : EReal) * (Qv (ix2 d (y 1)) : EReal)

theorem Sfun_apply (K : FVec Ideal S64x256 .bf16) (Qv : Vec Ideal S64x4096 .bf16) (kk : Fin 256) (n : Fin 4096) :
    Sfun K Qv (ix2 kk n) = ∑ d : Fin 64, (K (ix2 d kk) : EReal) * (Qv (ix2 d n) : EReal) := rfl

/-- Their exponentials, each row taken from its largest score. -/
def Pfun (K : FVec Ideal S64x256 .bf16) (Qv : Vec Ideal S64x4096 .bf16) : FVec Ideal S256x4096 .f32 :=
  k0_pay15 (Sfun K Qv) (Sfun K Qv)

/-- The accumulator after the block: what it held plus the block's 256 contributions. -/
def stepFun (V : FVec Ideal S256x256 .bf16) (Lc : FVec Ideal S256x1 .f32) (P A : Vec Ideal S256x4096 .f32) : Vec Ideal S256x4096 .f32 :=
  fun y => (A y : EReal) + ∑ kk : Fin 256, (V (ix2 (y 0) kk) : EReal) * Ideal.div (P (ix2 kk (y 1))) (Lc (ix2 kk (0 : Fin 1)))

/-- The eight score chunks, stored one after the other, read back as the whole score block. -/
theorem scores_read {sig : RefSig} {κ : Kind} {sp : Space} (v : View sig κ sp S256x4096 .f32)
    (K : FVec Ideal S64x256 .bf16) (Qv : Vec Ideal S64x4096 .bf16) :
    v.readCov [⟨(Rect.unit (s := S256x4096) ![0, 3584] ![256, 512] (k0_off3_inb 7)), k0_pay9 K (View.ld Qv (Rect.unit (s := S64x4096) ![0, 3584] ![64, 512] (k0_off2_inb 7)))⟩,
      ⟨(Rect.unit (s := S256x4096) ![0, 3072] ![256, 512] (k0_off3_inb 6)), k0_pay9 K (View.ld Qv (Rect.unit (s := S64x4096) ![0, 3072] ![64, 512] (k0_off2_inb 6)))⟩,
      ⟨(Rect.unit (s := S256x4096) ![0, 2560] ![256, 512] (k0_off3_inb 5)), k0_pay9 K (View.ld Qv (Rect.unit (s := S64x4096) ![0, 2560] ![64, 512] (k0_off2_inb 5)))⟩,
      ⟨(Rect.unit (s := S256x4096) ![0, 2048] ![256, 512] (k0_off3_inb 4)), k0_pay9 K (View.ld Qv (Rect.unit (s := S64x4096) ![0, 2048] ![64, 512] (k0_off2_inb 4)))⟩,
      ⟨(Rect.unit (s := S256x4096) ![0, 1536] ![256, 512] (k0_off3_inb 3)), k0_pay9 K (View.ld Qv (Rect.unit (s := S64x4096) ![0, 1536] ![64, 512] (k0_off2_inb 3)))⟩,
      ⟨(Rect.unit (s := S256x4096) ![0, 1024] ![256, 512] (k0_off3_inb 2)), k0_pay9 K (View.ld Qv (Rect.unit (s := S64x4096) ![0, 1024] ![64, 512] (k0_off2_inb 2)))⟩,
      ⟨(Rect.unit (s := S256x4096) ![0, 512] ![256, 512] (k0_off3_inb 1)), k0_pay9 K (View.ld Qv (Rect.unit (s := S64x4096) ![0, 512] ![64, 512] (k0_off2_inb 1)))⟩,
      ⟨(Rect.unit (s := S256x4096) ![0, 0] ![256, 512] (k0_off3_inb 0)), k0_pay9 K (View.ld Qv (Rect.unit (s := S64x4096) ![0, 0] ![64, 512] (k0_off2_inb 0)))⟩]
      (Rect.unit (s := S256x4096) ![0, 0] ![256, 4096] inb_S256x4096_S256x4096_0_0).toLoadRect = Sfun K Qv := by
  rw [View.readCov_eq_canon', canon8 (Sfun K Qv) [] (k0_off3_inb 0) (k0_off3_inb 1) (k0_off3_inb 2) (k0_off3_inb 3) (k0_off3_inb 4) (k0_off3_inb 5) (k0_off3_inb 6) (k0_off3_inb 7) _ _ _ _ _ _ _ _
    (fun r n' h => (pay9_apply K _ r n').trans (Finset.sum_congr rfl fun d _ => congrArg (fun z => (K (ix2 d r) : EReal) * z) (ld_chunk Qv 0 (k0_off2_inb 0) d n' h)))
    (fun r n' h => (pay9_apply K _ r n').trans (Finset.sum_congr rfl fun d _ => congrArg (fun z => (K (ix2 d r) : EReal) * z) (ld_chunk Qv 512 (k0_off2_inb 1) d n' h)))
    (fun r n' h => (pay9_apply K _ r n').trans (Finset.sum_congr rfl fun d _ => congrArg (fun z => (K (ix2 d r) : EReal) * z) (ld_chunk Qv 1024 (k0_off2_inb 2) d n' h)))
    (fun r n' h => (pay9_apply K _ r n').trans (Finset.sum_congr rfl fun d _ => congrArg (fun z => (K (ix2 d r) : EReal) * z) (ld_chunk Qv 1536 (k0_off2_inb 3) d n' h)))
    (fun r n' h => (pay9_apply K _ r n').trans (Finset.sum_congr rfl fun d _ => congrArg (fun z => (K (ix2 d r) : EReal) * z) (ld_chunk Qv 2048 (k0_off2_inb 4) d n' h)))
    (fun r n' h => (pay9_apply K _ r n').trans (Finset.sum_congr rfl fun d _ => congrArg (fun z => (K (ix2 d r) : EReal) * z) (ld_chunk Qv 2560 (k0_off2_inb 5) d n' h)))
    (fun r n' h => (pay9_apply K _ r n').trans (Finset.sum_congr rfl fun d _ => congrArg (fun z => (K (ix2 d r) : EReal) * z) (ld_chunk Qv 3072 (k0_off2_inb 6) d n' h)))
    (fun r n' h => (pay9_apply K _ r n').trans (Finset.sum_congr rfl fun d _ => congrArg (fun z => (K (ix2 d r) : EReal) * z) (ld_chunk Qv 3584 (k0_off2_inb 7) d n' h)))]
  exact View.ld_unit_zero (S := S256x4096) hz2 inb_S256x4096_S256x4096_0_0 _

/-- A load made after a store of the whole buffer reads that store, whatever was stored before it. -/
theorem readCov_wcons {sig : RefSig} {κ : Kind} {sp : Space} {S : Shape} {e : EltTy} {Val : EltTy → Type} [∀ e, Nonempty (Val e)]
    (v : View sig κ sp S e) {off : Fin S.rank → Nat} (h : off = fun _ => 0) (iw : ∀ a, off a + S.size a ≤ S.size a)
    (w : S.Idx → Val e) (L : List (View.Piece Val S e)) (r : Rect S) :
    v.readCov (⟨Rect.unit off S.size iw, w⟩ :: L) r.toLoadRect = View.ld w r := by
  rw [View.readCov_eq_canon', View.canon_cons_unit_zero h]

/-- A load through a rectangle disjoint from the last store's does not see that store. -/
theorem readCov_skip {sig : RefSig} {κ : Kind} {sp : Space} {S : Shape} {e : EltTy} {Val : EltTy → Type} [∀ e, Nonempty (Val e)]
    (v : View sig κ sp S e) (r r' : Rect S) (hd : Disjoint r.set r'.set) (w : r.shape.Idx → Val e) (L : List (View.Piece Val S e)) :
    v.readCov (⟨r, w⟩ :: L) r'.toLoadRect = v.readCov L r'.toLoadRect :=
  View.readCov_cons_of_disjoint v ⟨r, w⟩ L r'.toLoadRect hd

/-- The eight accumulator chunks, stored after anything else, leave the stepped accumulator. -/
theorem acc_canon_lit (V : FVec Ideal S256x256 .bf16) (Lc : FVec Ideal S256x1 .f32) (P A : Vec Ideal S256x4096 .f32)
    (L' : List (View.Piece (Elt Ideal) S256x4096 .f32)) :
    View.canon ((⟨(Rect.unit (s := S256x4096) ![0, 3584] ![256, 512] (k0_off3_inb 7)), k0_pay17 V Lc (View.ld P (Rect.unit (s := S256x4096) ![0, 3584] ![256, 512] (k0_off3_inb 7))) (View.ld A (Rect.unit (s := S256x4096) ![0, 3584] ![256, 512] (k0_off3_inb 7)))⟩ : View.Piece (Elt Ideal) S256x4096 .f32) ::
      (⟨(Rect.unit (s := S256x4096) ![0, 3072] ![256, 512] (k0_off3_inb 6)), k0_pay17 V Lc (View.ld P (Rect.unit (s := S256x4096) ![0, 3072] ![256, 512] (k0_off3_inb 6))) (View.ld A (Rect.unit (s := S256x4096) ![0, 3072] ![256, 512] (k0_off3_inb 6)))⟩ : View.Piece (Elt Ideal) S256x4096 .f32) ::
      (⟨(Rect.unit (s := S256x4096) ![0, 2560] ![256, 512] (k0_off3_inb 5)), k0_pay17 V Lc (View.ld P (Rect.unit (s := S256x4096) ![0, 2560] ![256, 512] (k0_off3_inb 5))) (View.ld A (Rect.unit (s := S256x4096) ![0, 2560] ![256, 512] (k0_off3_inb 5)))⟩ : View.Piece (Elt Ideal) S256x4096 .f32) ::
      (⟨(Rect.unit (s := S256x4096) ![0, 2048] ![256, 512] (k0_off3_inb 4)), k0_pay17 V Lc (View.ld P (Rect.unit (s := S256x4096) ![0, 2048] ![256, 512] (k0_off3_inb 4))) (View.ld A (Rect.unit (s := S256x4096) ![0, 2048] ![256, 512] (k0_off3_inb 4)))⟩ : View.Piece (Elt Ideal) S256x4096 .f32) ::
      (⟨(Rect.unit (s := S256x4096) ![0, 1536] ![256, 512] (k0_off3_inb 3)), k0_pay17 V Lc (View.ld P (Rect.unit (s := S256x4096) ![0, 1536] ![256, 512] (k0_off3_inb 3))) (View.ld A (Rect.unit (s := S256x4096) ![0, 1536] ![256, 512] (k0_off3_inb 3)))⟩ : View.Piece (Elt Ideal) S256x4096 .f32) ::
      (⟨(Rect.unit (s := S256x4096) ![0, 1024] ![256, 512] (k0_off3_inb 2)), k0_pay17 V Lc (View.ld P (Rect.unit (s := S256x4096) ![0, 1024] ![256, 512] (k0_off3_inb 2))) (View.ld A (Rect.unit (s := S256x4096) ![0, 1024] ![256, 512] (k0_off3_inb 2)))⟩ : View.Piece (Elt Ideal) S256x4096 .f32) ::
      (⟨(Rect.unit (s := S256x4096) ![0, 512] ![256, 512] (k0_off3_inb 1)), k0_pay17 V Lc (View.ld P (Rect.unit (s := S256x4096) ![0, 512] ![256, 512] (k0_off3_inb 1))) (View.ld A (Rect.unit (s := S256x4096) ![0, 512] ![256, 512] (k0_off3_inb 1)))⟩ : View.Piece (Elt Ideal) S256x4096 .f32) ::
      (⟨(Rect.unit (s := S256x4096) ![0, 0] ![256, 512] (k0_off3_inb 0)), k0_pay17 V Lc (View.ld P (Rect.unit (s := S256x4096) ![0, 0] ![256, 512] (k0_off3_inb 0))) (View.ld A (Rect.unit (s := S256x4096) ![0, 0] ![256, 512] (k0_off3_inb 0)))⟩ : View.Piece (Elt Ideal) S256x4096 .f32) :: L')
      = stepFun V Lc P A :=
  canon8 (stepFun V Lc P A) L' (k0_off3_inb 0) (k0_off3_inb 1) (k0_off3_inb 2) (k0_off3_inb 3) (k0_off3_inb 4) (k0_off3_inb 5) (k0_off3_inb 6) (k0_off3_inb 7) _ _ _ _ _ _ _ _
    (fun r n' h => (pay17_apply V Lc _ _ r n').trans (by
      show _ + _ = (A (ix2 r ⟨0 + n'.val, h⟩) : EReal) + _
      rw [show View.ld A (Rect.unit (s := S256x4096) ![0, 0] ![256, 512] (k0_off3_inb 0)) (ix2 r n') = A (ix2 r ⟨0 + n'.val, h⟩) from ld_chunk A 0 (k0_off3_inb 0) r n' h]
      refine congrArg (fun z => (A (ix2 r ⟨0 + n'.val, h⟩) : EReal) + z) (Finset.sum_congr rfl fun kk _ => ?_)
      rw [show View.ld P (Rect.unit (s := S256x4096) ![0, 0] ![256, 512] (k0_off3_inb 0)) (ix2 kk n') = P (ix2 kk ⟨0 + n'.val, h⟩) from ld_chunk P 0 (k0_off3_inb 0) kk n' h]))
    (fun r n' h => (pay17_apply V Lc _ _ r n').trans (by
      show _ + _ = (A (ix2 r ⟨512 + n'.val, h⟩) : EReal) + _
      rw [show View.ld A (Rect.unit (s := S256x4096) ![0, 512] ![256, 512] (k0_off3_inb 1)) (ix2 r n') = A (ix2 r ⟨512 + n'.val, h⟩) from ld_chunk A 512 (k0_off3_inb 1) r n' h]
      refine congrArg (fun z => (A (ix2 r ⟨512 + n'.val, h⟩) : EReal) + z) (Finset.sum_congr rfl fun kk _ => ?_)
      rw [show View.ld P (Rect.unit (s := S256x4096) ![0, 512] ![256, 512] (k0_off3_inb 1)) (ix2 kk n') = P (ix2 kk ⟨512 + n'.val, h⟩) from ld_chunk P 512 (k0_off3_inb 1) kk n' h]))
    (fun r n' h => (pay17_apply V Lc _ _ r n').trans (by
      show _ + _ = (A (ix2 r ⟨1024 + n'.val, h⟩) : EReal) + _
      rw [show View.ld A (Rect.unit (s := S256x4096) ![0, 1024] ![256, 512] (k0_off3_inb 2)) (ix2 r n') = A (ix2 r ⟨1024 + n'.val, h⟩) from ld_chunk A 1024 (k0_off3_inb 2) r n' h]
      refine congrArg (fun z => (A (ix2 r ⟨1024 + n'.val, h⟩) : EReal) + z) (Finset.sum_congr rfl fun kk _ => ?_)
      rw [show View.ld P (Rect.unit (s := S256x4096) ![0, 1024] ![256, 512] (k0_off3_inb 2)) (ix2 kk n') = P (ix2 kk ⟨1024 + n'.val, h⟩) from ld_chunk P 1024 (k0_off3_inb 2) kk n' h]))
    (fun r n' h => (pay17_apply V Lc _ _ r n').trans (by
      show _ + _ = (A (ix2 r ⟨1536 + n'.val, h⟩) : EReal) + _
      rw [show View.ld A (Rect.unit (s := S256x4096) ![0, 1536] ![256, 512] (k0_off3_inb 3)) (ix2 r n') = A (ix2 r ⟨1536 + n'.val, h⟩) from ld_chunk A 1536 (k0_off3_inb 3) r n' h]
      refine congrArg (fun z => (A (ix2 r ⟨1536 + n'.val, h⟩) : EReal) + z) (Finset.sum_congr rfl fun kk _ => ?_)
      rw [show View.ld P (Rect.unit (s := S256x4096) ![0, 1536] ![256, 512] (k0_off3_inb 3)) (ix2 kk n') = P (ix2 kk ⟨1536 + n'.val, h⟩) from ld_chunk P 1536 (k0_off3_inb 3) kk n' h]))
    (fun r n' h => (pay17_apply V Lc _ _ r n').trans (by
      show _ + _ = (A (ix2 r ⟨2048 + n'.val, h⟩) : EReal) + _
      rw [show View.ld A (Rect.unit (s := S256x4096) ![0, 2048] ![256, 512] (k0_off3_inb 4)) (ix2 r n') = A (ix2 r ⟨2048 + n'.val, h⟩) from ld_chunk A 2048 (k0_off3_inb 4) r n' h]
      refine congrArg (fun z => (A (ix2 r ⟨2048 + n'.val, h⟩) : EReal) + z) (Finset.sum_congr rfl fun kk _ => ?_)
      rw [show View.ld P (Rect.unit (s := S256x4096) ![0, 2048] ![256, 512] (k0_off3_inb 4)) (ix2 kk n') = P (ix2 kk ⟨2048 + n'.val, h⟩) from ld_chunk P 2048 (k0_off3_inb 4) kk n' h]))
    (fun r n' h => (pay17_apply V Lc _ _ r n').trans (by
      show _ + _ = (A (ix2 r ⟨2560 + n'.val, h⟩) : EReal) + _
      rw [show View.ld A (Rect.unit (s := S256x4096) ![0, 2560] ![256, 512] (k0_off3_inb 5)) (ix2 r n') = A (ix2 r ⟨2560 + n'.val, h⟩) from ld_chunk A 2560 (k0_off3_inb 5) r n' h]
      refine congrArg (fun z => (A (ix2 r ⟨2560 + n'.val, h⟩) : EReal) + z) (Finset.sum_congr rfl fun kk _ => ?_)
      rw [show View.ld P (Rect.unit (s := S256x4096) ![0, 2560] ![256, 512] (k0_off3_inb 5)) (ix2 kk n') = P (ix2 kk ⟨2560 + n'.val, h⟩) from ld_chunk P 2560 (k0_off3_inb 5) kk n' h]))
    (fun r n' h => (pay17_apply V Lc _ _ r n').trans (by
      show _ + _ = (A (ix2 r ⟨3072 + n'.val, h⟩) : EReal) + _
      rw [show View.ld A (Rect.unit (s := S256x4096) ![0, 3072] ![256, 512] (k0_off3_inb 6)) (ix2 r n') = A (ix2 r ⟨3072 + n'.val, h⟩) from ld_chunk A 3072 (k0_off3_inb 6) r n' h]
      refine congrArg (fun z => (A (ix2 r ⟨3072 + n'.val, h⟩) : EReal) + z) (Finset.sum_congr rfl fun kk _ => ?_)
      rw [show View.ld P (Rect.unit (s := S256x4096) ![0, 3072] ![256, 512] (k0_off3_inb 6)) (ix2 kk n') = P (ix2 kk ⟨3072 + n'.val, h⟩) from ld_chunk P 3072 (k0_off3_inb 6) kk n' h]))
    (fun r n' h => (pay17_apply V Lc _ _ r n').trans (by
      show _ + _ = (A (ix2 r ⟨3584 + n'.val, h⟩) : EReal) + _
      rw [show View.ld A (Rect.unit (s := S256x4096) ![0, 3584] ![256, 512] (k0_off3_inb 7)) (ix2 r n') = A (ix2 r ⟨3584 + n'.val, h⟩) from ld_chunk A 3584 (k0_off3_inb 7) r n' h]
      refine congrArg (fun z => (A (ix2 r ⟨3584 + n'.val, h⟩) : EReal) + z) (Finset.sum_congr rfl fun kk _ => ?_)
      rw [show View.ld P (Rect.unit (s := S256x4096) ![0, 3584] ![256, 512] (k0_off3_inb 7)) (ix2 kk n') = P (ix2 kk ⟨3584 + n'.val, h⟩) from ld_chunk P 3584 (k0_off3_inb 7) kk n' h]))

/-- The same, when what each chunk adds to is known only up to an equation. -/
theorem acc_canon_hyp (V : FVec Ideal S256x256 .bf16) (Lc : FVec Ideal S256x1 .f32) (P A : Vec Ideal S256x4096 .f32)
    (L' : List (View.Piece (Elt Ideal) S256x4096 .f32))
    (a0 : Vec Ideal S256x512 .f32) (a1 : Vec Ideal S256x512 .f32) (a2 : Vec Ideal S256x512 .f32) (a3 : Vec Ideal S256x512 .f32) (a4 : Vec Ideal S256x512 .f32) (a5 : Vec Ideal S256x512 .f32) (a6 : Vec Ideal S256x512 .f32) (a7 : Vec Ideal S256x512 .f32)
    (ha0 : a0 = View.ld A (Rect.unit (s := S256x4096) ![0, 0] ![256, 512] (k0_off3_inb 0)))
    (ha1 : a1 = View.ld A (Rect.unit (s := S256x4096) ![0, 512] ![256, 512] (k0_off3_inb 1)))
    (ha2 : a2 = View.ld A (Rect.unit (s := S256x4096) ![0, 1024] ![256, 512] (k0_off3_inb 2)))
    (ha3 : a3 = View.ld A (Rect.unit (s := S256x4096) ![0, 1536] ![256, 512] (k0_off3_inb 3)))
    (ha4 : a4 = View.ld A (Rect.unit (s := S256x4096) ![0, 2048] ![256, 512] (k0_off3_inb 4)))
    (ha5 : a5 = View.ld A (Rect.unit (s := S256x4096) ![0, 2560] ![256, 512] (k0_off3_inb 5)))
    (ha6 : a6 = View.ld A (Rect.unit (s := S256x4096) ![0, 3072] ![256, 512] (k0_off3_inb 6)))
    (ha7 : a7 = View.ld A (Rect.unit (s := S256x4096) ![0, 3584] ![256, 512] (k0_off3_inb 7))) :
    View.canon ((⟨(Rect.unit (s := S256x4096) ![0, 3584] ![256, 512] (k0_off3_inb 7)), k0_pay17 V Lc (View.ld P (Rect.unit (s := S256x4096) ![0, 3584] ![256, 512] (k0_off3_inb 7))) a7⟩ : View.Piece (Elt Ideal) S256x4096 .f32) ::
      (⟨(Rect.unit (s := S256x4096) ![0, 3072] ![256, 512] (k0_off3_inb 6)), k0_pay17 V Lc (View.ld P (Rect.unit (s := S256x4096) ![0, 3072] ![256, 512] (k0_off3_inb 6))) a6⟩ : View.Piece (Elt Ideal) S256x4096 .f32) ::
      (⟨(Rect.unit (s := S256x4096) ![0, 2560] ![256, 512] (k0_off3_inb 5)), k0_pay17 V Lc (View.ld P (Rect.unit (s := S256x4096) ![0, 2560] ![256, 512] (k0_off3_inb 5))) a5⟩ : View.Piece (Elt Ideal) S256x4096 .f32) ::
      (⟨(Rect.unit (s := S256x4096) ![0, 2048] ![256, 512] (k0_off3_inb 4)), k0_pay17 V Lc (View.ld P (Rect.unit (s := S256x4096) ![0, 2048] ![256, 512] (k0_off3_inb 4))) a4⟩ : View.Piece (Elt Ideal) S256x4096 .f32) ::
      (⟨(Rect.unit (s := S256x4096) ![0, 1536] ![256, 512] (k0_off3_inb 3)), k0_pay17 V Lc (View.ld P (Rect.unit (s := S256x4096) ![0, 1536] ![256, 512] (k0_off3_inb 3))) a3⟩ : View.Piece (Elt Ideal) S256x4096 .f32) ::
      (⟨(Rect.unit (s := S256x4096) ![0, 1024] ![256, 512] (k0_off3_inb 2)), k0_pay17 V Lc (View.ld P (Rect.unit (s := S256x4096) ![0, 1024] ![256, 512] (k0_off3_inb 2))) a2⟩ : View.Piece (Elt Ideal) S256x4096 .f32) ::
      (⟨(Rect.unit (s := S256x4096) ![0, 512] ![256, 512] (k0_off3_inb 1)), k0_pay17 V Lc (View.ld P (Rect.unit (s := S256x4096) ![0, 512] ![256, 512] (k0_off3_inb 1))) a1⟩ : View.Piece (Elt Ideal) S256x4096 .f32) ::
      (⟨(Rect.unit (s := S256x4096) ![0, 0] ![256, 512] (k0_off3_inb 0)), k0_pay17 V Lc (View.ld P (Rect.unit (s := S256x4096) ![0, 0] ![256, 512] (k0_off3_inb 0))) a0⟩ : View.Piece (Elt Ideal) S256x4096 .f32) :: L')
      = stepFun V Lc P A := by
  subst ha0 ha1 ha2 ha3 ha4 ha5 ha6 ha7
  exact acc_canon_lit V Lc P A L'

/-- Read back whole, the eight accumulator chunks are the stepped accumulator. -/
theorem acc_read_lit {sig : RefSig} {κ : Kind} {sp : Space} (v : View sig κ sp S256x4096 .f32)
    (V : FVec Ideal S256x256 .bf16) (Lc : FVec Ideal S256x1 .f32) (P A : Vec Ideal S256x4096 .f32) :
    v.readCov [⟨(Rect.unit (s := S256x4096) ![0, 3584] ![256, 512] (k0_off3_inb 7)), k0_pay17 V Lc (View.ld P (Rect.unit (s := S256x4096) ![0, 3584] ![256, 512] (k0_off3_inb 7))) (View.ld A (Rect.unit (s := S256x4096) ![0, 3584] ![256, 512] (k0_off3_inb 7)))⟩,
      ⟨(Rect.unit (s := S256x4096) ![0, 3072] ![256, 512] (k0_off3_inb 6)), k0_pay17 V Lc (View.ld P (Rect.unit (s := S256x4096) ![0, 3072] ![256, 512] (k0_off3_inb 6))) (View.ld A (Rect.unit (s := S256x4096) ![0, 3072] ![256, 512] (k0_off3_inb 6)))⟩,
      ⟨(Rect.unit (s := S256x4096) ![0, 2560] ![256, 512] (k0_off3_inb 5)), k0_pay17 V Lc (View.ld P (Rect.unit (s := S256x4096) ![0, 2560] ![256, 512] (k0_off3_inb 5))) (View.ld A (Rect.unit (s := S256x4096) ![0, 2560] ![256, 512] (k0_off3_inb 5)))⟩,
      ⟨(Rect.unit (s := S256x4096) ![0, 2048] ![256, 512] (k0_off3_inb 4)), k0_pay17 V Lc (View.ld P (Rect.unit (s := S256x4096) ![0, 2048] ![256, 512] (k0_off3_inb 4))) (View.ld A (Rect.unit (s := S256x4096) ![0, 2048] ![256, 512] (k0_off3_inb 4)))⟩,
      ⟨(Rect.unit (s := S256x4096) ![0, 1536] ![256, 512] (k0_off3_inb 3)), k0_pay17 V Lc (View.ld P (Rect.unit (s := S256x4096) ![0, 1536] ![256, 512] (k0_off3_inb 3))) (View.ld A (Rect.unit (s := S256x4096) ![0, 1536] ![256, 512] (k0_off3_inb 3)))⟩,
      ⟨(Rect.unit (s := S256x4096) ![0, 1024] ![256, 512] (k0_off3_inb 2)), k0_pay17 V Lc (View.ld P (Rect.unit (s := S256x4096) ![0, 1024] ![256, 512] (k0_off3_inb 2))) (View.ld A (Rect.unit (s := S256x4096) ![0, 1024] ![256, 512] (k0_off3_inb 2)))⟩,
      ⟨(Rect.unit (s := S256x4096) ![0, 512] ![256, 512] (k0_off3_inb 1)), k0_pay17 V Lc (View.ld P (Rect.unit (s := S256x4096) ![0, 512] ![256, 512] (k0_off3_inb 1))) (View.ld A (Rect.unit (s := S256x4096) ![0, 512] ![256, 512] (k0_off3_inb 1)))⟩,
      ⟨(Rect.unit (s := S256x4096) ![0, 0] ![256, 512] (k0_off3_inb 0)), k0_pay17 V Lc (View.ld P (Rect.unit (s := S256x4096) ![0, 0] ![256, 512] (k0_off3_inb 0))) (View.ld A (Rect.unit (s := S256x4096) ![0, 0] ![256, 512] (k0_off3_inb 0)))⟩] (Rect.unit (s := S256x4096) ![0, 0] ![256, 4096] inb_S256x4096_S256x4096_0_0).toLoadRect
      = stepFun V Lc P A := by
  rw [View.readCov_eq_canon', acc_canon_lit V Lc P A []]
  exact View.ld_unit_zero (S := S256x4096) hz2 inb_S256x4096_S256x4096_0_0 _

/-! ## The block in the terms of the specification -/

section Bridge

variable (xt : Vec Ideal S1x256x256 .f32) (x2 : Vec Ideal S256x64 .f32) (x3 : Vec Ideal S256x256 .f32)
  (Qv : Vec Ideal S64x4096 .bf16)

/-- The column of the block's position `kk`. -/
abbrev colOf (kk : Fin 256) : Fin 256 → EReal := fun c' => xt (ix3 (0 : Fin 1) c' kk)

/-- The query vectors, as a function of the coordinates. -/
abbrev Qof : Fin 64 → Fin 4096 → EReal := fun d n => Qv (ix2 d n)

theorem S_eq (kk : Fin 256) (n : Fin 4096) :
    Sfun (k0_pay5 xt x2) Qv (ix2 kk n) = Cert.Attn.Srow x2 (colOf xt kk) (Qof Qv) n := by
  rw [Sfun_apply]
  unfold Cert.Attn.Srow Cert.Attn.Kcol
  exact Finset.sum_congr rfl fun d _ => by rw [pay5_apply]

theorem P_eq (kk : Fin 256) (n : Fin 4096) :
    Pfun (k0_pay5 xt x2) Qv (ix2 kk n) = Cert.Attn.Prow x2 (colOf xt kk) (Qof Qv) n := by
  unfold Pfun
  rw [pay15_apply]
  unfold Cert.Attn.Prow Cert.Attn.Mrow
  simp only [S_eq]

theorem L_eq (kk : Fin 256) :
    k0_pay16 (F := Ideal) (Pfun (k0_pay5 xt x2) Qv) (ix2 kk (0 : Fin 1)) = Cert.Attn.Lrow x2 (colOf xt kk) (Qof Qv) := by
  rw [pay16_apply]
  unfold Cert.Attn.Lrow
  exact Finset.sum_congr rfl fun n _ => P_eq xt x2 Qv kk n

theorem V_eq (c : Fin 256) (kk : Fin 256) : k0_pay6 xt x3 (ix2 c kk) = Cert.Attn.Vcol x3 (colOf xt kk) c :=
  pay6_apply xt x3 c kk

/-- The step adds the contributions of the block's 256 positions. -/
theorem step_apply (A : Vec Ideal S256x4096 .f32) (c : Fin 256) (n : Fin 4096) :
    stepFun (k0_pay6 xt x3) (k0_pay16 (F := Ideal) (Pfun (k0_pay5 xt x2) Qv)) (Pfun (k0_pay5 xt x2) Qv) A (ix2 c n)
      = (A (ix2 c n) : EReal) + ∑ kk : Fin 256, Cert.Attn.term x2 x3 (colOf xt kk) (Qof Qv) c n := by
  show (A (ix2 c n) : EReal) + _ = _
  refine congrArg (fun z => (A (ix2 c n) : EReal) + z) (Finset.sum_congr rfl fun kk _ => ?_)
  show (k0_pay6 xt x3 (ix2 c kk) : EReal) * Ideal.div (Pfun (k0_pay5 xt x2) Qv (ix2 kk n)) (k0_pay16 (F := Ideal) (Pfun (k0_pay5 xt x2) Qv) (ix2 kk (0 : Fin 1))) = _
  rw [V_eq, P_eq, L_eq]
  rfl

/-- Started from the sum over the first `kt` blocks, the step gives the sum over `kt + 1` blocks, when the block's
    positions are positions `256·kt, …` of the batch and the cached queries are the batch's. -/
theorem step_spec (wq wk : Vec Ideal S256x64 .f32) (wv : Vec Ideal S256x256 .f32) (h2 : x2 = wk) (h3 : x3 = wv)
    (Xb : Fin 256 → Fin 4096 → EReal) (A : Vec Ideal S256x4096 .f32)
    (kt : ℕ) (hkt : kt < 16)
    (hx : ∀ (c' : Fin 256) (kk : Fin 256),
      (xt (ix3 (0 : Fin 1) c' kk) : EReal) = Xb c' ⟨kk.val + 256 * kt, by have := kk.isLt; omega⟩)
    (hQ : ∀ (d : Fin 64) (n : Fin 4096), (Qv (ix2 d n) : EReal) = Cert.Attn.Qf wq Xb d n)
    (hA : ∀ (c : Fin 256) (n : Fin 4096), (A (ix2 c n) : EReal) = Cert.Attn.accT wq wk wv Xb kt c n)
    (c : Fin 256) (n : Fin 4096) :
    stepFun (k0_pay6 xt x3) (k0_pay16 (F := Ideal) (Pfun (k0_pay5 xt x2) Qv)) (Pfun (k0_pay5 xt x2) Qv) A (ix2 c n)
      = Cert.Attn.accT wq wk wv Xb (kt + 1) c n := by
  subst h2 h3
  rw [step_apply, hA, Cert.Attn.accT_succ]
  refine congrArg (fun z => Cert.Attn.accT wq x2 x3 Xb kt c n + z) (Finset.sum_congr rfl fun kk _ => ?_)
  have hk : kk.val + 256 * kt < 4096 := by have := kk.isLt; omega
  unfold Cert.Attn.termN
  rw [dif_pos hk]
  have e1 : colOf xt kk = fun c' => Xb c' ⟨kk.val + 256 * kt, hk⟩ := funext fun c' => hx c' kk
  have e2 : Qof Qv = Cert.Attn.Qf wq Xb := funext fun d => funext fun n => hQ d n
  rw [e1, e2]

end Bridge

end Cert.KernelIdeal.Block

end
-- ==== Proof.Pieces.lean ====
/-
  What each of the body's three cases leaves behind, read off the stores the body makes.

  The grid walks, for each batch, sixteen blocks of 256 keys.  At the FIRST block the body projects the queries of the whole
  batch and caches them, zeroes the accumulator, and steps it by the block; at a MIDDLE block it steps the accumulator it
  finds, against the cached queries; at the LAST block it does the same and then writes the output block.  In every case
  the stepped accumulator is `Block.stepFun` of the block's value vectors, its normalised exponentials, and the
  accumulator the step started from.
-/
import proofs.«182164_j80702435492474_2_alg».proof.Proof.Gen.KernelIdeal.Frame
import proofs.«182164_j80702435492474_2_alg».proof.Proof.Block
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.ValueIdx Idealize.SL.Sem
open Cert.KernelIdeal Cert.KernelIdeal.Gen Cert.KernelIdeal.Pay Cert.KernelIdeal.Chunks Cert.KernelIdeal.Block

/-- The first block of a batch leaves the query projection in the cache. -/
theorem sout_A_0 (c : Dev nD) (i : grid0.Coords) (arg2 : Memref sig .tc .vmem S1x256x4096 .f32) (harg2 : arg2.IsWhole) (arg3 : Memref sig .tc .vmem S256x64 .f32) (harg3 : arg3.IsWhole) (arg4 : Memref sig .tc .vmem S256x64 .f32) (harg4 : arg4.IsWhole) (arg5 : Memref sig .tc .vmem S256x256 .f32) (harg5 : arg5.IsWhole) (arg6 : Memref sig .tc .vmem S1x1 .f32) (harg6 : arg6.IsWhole) (arg7 : Memref sig .tc .vmem S1x256x4096 .f32) (harg7 : arg7.IsWhole) (arg8 : Memref sig .tc .vmem S64x4096 .bf16) (harg8 : arg8.IsWhole) (arg9 : Memref sig .tc .vmem S256x4096 .f32) (harg9 : arg9.IsWhole) (arg10 : Memref sig .tc .vmem S256x4096 .f32) (harg10 : arg10.IsWhole) (hc0 : cond0_0 i) (hc1 : ¬cond0_1 i) (x0 : Vec Ideal S1x256x4096 .f32) (x1 : Vec Ideal S256x64 .f32) (x2 : Vec Ideal S256x64 .f32) (x3 : Vec Ideal S256x256 .f32) (x4 : Vec Ideal S1x1 .f32) :
    sout0_A_0 (F := Ideal) c i arg2 harg2 arg3 harg3 arg4 harg4 arg5 harg5 arg6 harg6 arg7 harg7 arg8 harg8 arg9 harg9 arg10 harg10 hc0 hc1 x0 x1 x2 x3 x4 = k0_pay2 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_unit_zero hz2]
  simp only [View.readAt_eq_ld, harg2.read_unread, harg3.read_unread, harg4.read_unread, harg5.read_unread, harg6.read_unread, harg8.read_unread, harg9.read_unread,
    View.ld_unit_zero (S := S256x64) hz2, View.ld_unit_zero (S := S256x256) hz2, View.ld_unit_zero (S := S1x1) hz2, View.ld_unit_zero (S := S1x256x4096) hz3,
    View.ld_unit_zero (S := S256x4096) hz2, View.ld_unit_zero (S := S64x4096) hz2,
    pay7_eq, pay8_eq, pay10_eq, pay11_eq, pay12_eq, pay13_eq, pay14_eq, pay18_eq, pay21_eq, pay22_eq, pay25_eq, pay26_eq, pay20_eq, pay24_eq]

/-- The FIRST block of keys of a batch: the queries are projected and cached, the accumulator starts from zero. -/
theorem sout_A_1 (c : Dev nD) (i : grid0.Coords) (arg2 : Memref sig .tc .vmem S1x256x4096 .f32) (harg2 : arg2.IsWhole) (arg3 : Memref sig .tc .vmem S256x64 .f32) (harg3 : arg3.IsWhole) (arg4 : Memref sig .tc .vmem S256x64 .f32) (harg4 : arg4.IsWhole) (arg5 : Memref sig .tc .vmem S256x256 .f32) (harg5 : arg5.IsWhole) (arg6 : Memref sig .tc .vmem S1x1 .f32) (harg6 : arg6.IsWhole) (arg7 : Memref sig .tc .vmem S1x256x4096 .f32) (harg7 : arg7.IsWhole) (arg8 : Memref sig .tc .vmem S64x4096 .bf16) (harg8 : arg8.IsWhole) (arg9 : Memref sig .tc .vmem S256x4096 .f32) (harg9 : arg9.IsWhole) (arg10 : Memref sig .tc .vmem S256x4096 .f32) (harg10 : arg10.IsWhole) (hc0 : cond0_0 i) (hc1 : ¬cond0_1 i) (x0 : Vec Ideal S1x256x4096 .f32) (x1 : Vec Ideal S256x64 .f32) (x2 : Vec Ideal S256x64 .f32) (x3 : Vec Ideal S256x256 .f32) (x4 : Vec Ideal S1x1 .f32) :
    sout0_A_1 (F := Ideal) c i arg2 harg2 arg3 harg3 arg4 harg4 arg5 harg5 arg6 harg6 arg7 harg7 arg8 harg8 arg9 harg9 arg10 harg10 hc0 hc1 x0 x1 x2 x3 x4
      = stepFun (k0_pay6 (View.ld x0 (Rect.unit (k0_off1 i) S1x256x256.size (k0_off1_inb i))) x3) (k0_pay16 (F := Ideal) (Pfun (k0_pay5 (View.ld x0 (Rect.unit (k0_off1 i) S1x256x256.size (k0_off1_inb i))) x2) (k0_pay2 x0 x1))) (Pfun (k0_pay5 (View.ld x0 (Rect.unit (k0_off1 i) S1x256x256.size (k0_off1_inb i))) x2) (k0_pay2 x0 x1)) (k0_pay3 (F := Ideal)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.readAt_eq_ld, harg2.read_unread, harg3.read_unread, harg4.read_unread, harg5.read_unread, harg6.read_unread, harg8.read_unread, harg9.read_unread,
    View.ld_unit_zero (S := S256x64) hz2, View.ld_unit_zero (S := S256x256) hz2, View.ld_unit_zero (S := S1x1) hz2, View.ld_unit_zero (S := S1x256x4096) hz3,
    View.ld_unit_zero (S := S256x4096) hz2, View.ld_unit_zero (S := S64x4096) hz2,
    pay7_eq, pay8_eq, pay10_eq, pay11_eq, pay12_eq, pay13_eq, pay14_eq, pay18_eq, pay21_eq, pay22_eq, pay25_eq, pay26_eq, pay20_eq, pay24_eq]
  simp only [readCov_wcons (S := S64x4096) _ hz2]
  rw [scores_read]
  simp only [readCov_wcons (S := S256x4096) _ hz2, View.ld_unit_zero (S := S256x4096) hz2]
  refine acc_canon_hyp _ _ _ (k0_pay3 (F := Ideal)) [_] _ _ _ _ _ _ _ _ rfl ?_ ?_ ?_ ?_ ?_ ?_ ?_
  all_goals
    repeat (refine (readCov_skip _ _ _ (Rect.unit_disjoint (s := S256x4096) (1 : Fin 2) (Or.inl (by decide))) _ _).trans ?_)
    exact readCov_wcons (S := S256x4096) _ hz2 _ _ _ _
/-- A MIDDLE block of keys: the accumulator, holding `xs1`, is stepped by the block; the queries are the cached `xs0`. -/
theorem sout_B_1 (c : Dev nD) (i : grid0.Coords) (arg2 : Memref sig .tc .vmem S1x256x4096 .f32) (harg2 : arg2.IsWhole) (arg3 : Memref sig .tc .vmem S256x64 .f32) (harg3 : arg3.IsWhole) (arg4 : Memref sig .tc .vmem S256x64 .f32) (harg4 : arg4.IsWhole) (arg5 : Memref sig .tc .vmem S256x256 .f32) (harg5 : arg5.IsWhole) (arg6 : Memref sig .tc .vmem S1x1 .f32) (harg6 : arg6.IsWhole) (arg7 : Memref sig .tc .vmem S1x256x4096 .f32) (harg7 : arg7.IsWhole) (arg8 : Memref sig .tc .vmem S64x4096 .bf16) (harg8 : arg8.IsWhole) (arg9 : Memref sig .tc .vmem S256x4096 .f32) (harg9 : arg9.IsWhole) (arg10 : Memref sig .tc .vmem S256x4096 .f32) (harg10 : arg10.IsWhole) (hc0 : ¬cond0_0 i) (hc1 : ¬cond0_1 i) (x0 : Vec Ideal S1x256x4096 .f32) (x1 : Vec Ideal S256x64 .f32) (x2 : Vec Ideal S256x64 .f32) (x3 : Vec Ideal S256x256 .f32) (x4 : Vec Ideal S1x1 .f32)
    (xs0 : Vec Ideal S64x4096 .bf16) (xs1 : Vec Ideal S256x4096 .f32) :
    sout0_B_1 (F := Ideal) c i arg2 harg2 arg3 harg3 arg4 harg4 arg5 harg5 arg6 harg6 arg7 harg7 arg8 harg8 arg9 harg9 arg10 harg10 hc0 hc1 x0 x1 x2 x3 x4 xs0 xs1
      = stepFun (k0_pay6 (View.ld x0 (Rect.unit (k0_off1 i) S1x256x256.size (k0_off1_inb i))) x3) (k0_pay16 (F := Ideal) (Pfun (k0_pay5 (View.ld x0 (Rect.unit (k0_off1 i) S1x256x256.size (k0_off1_inb i))) x2) xs0)) (Pfun (k0_pay5 (View.ld x0 (Rect.unit (k0_off1 i) S1x256x256.size (k0_off1_inb i))) x2) xs0) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  simp only [View.readAt_eq_ld, harg2.read_unread, harg3.read_unread, harg4.read_unread, harg5.read_unread, harg6.read_unread, harg8.read_unread, harg9.read_unread,
    View.ld_unit_zero (S := S256x64) hz2, View.ld_unit_zero (S := S256x256) hz2, View.ld_unit_zero (S := S1x1) hz2, View.ld_unit_zero (S := S1x256x4096) hz3,
    View.ld_unit_zero (S := S256x4096) hz2, View.ld_unit_zero (S := S64x4096) hz2,
    pay7_eq, pay8_eq, pay10_eq, pay11_eq, pay12_eq, pay13_eq, pay14_eq, pay18_eq, pay21_eq, pay22_eq, pay25_eq, pay26_eq, pay20_eq, pay24_eq]
  rw [scores_read]
  simp only [readCov_wcons (S := S256x4096) _ hz2, View.ld_unit_zero (S := S256x4096) hz2]
  exact acc_canon_lit _ _ _ _ []
/-- The LAST block of keys steps the accumulator in the same way. -/
theorem sout_C_1 (c : Dev nD) (i : grid0.Coords) (arg2 : Memref sig .tc .vmem S1x256x4096 .f32) (harg2 : arg2.IsWhole) (arg3 : Memref sig .tc .vmem S256x64 .f32) (harg3 : arg3.IsWhole) (arg4 : Memref sig .tc .vmem S256x64 .f32) (harg4 : arg4.IsWhole) (arg5 : Memref sig .tc .vmem S256x256 .f32) (harg5 : arg5.IsWhole) (arg6 : Memref sig .tc .vmem S1x1 .f32) (harg6 : arg6.IsWhole) (arg7 : Memref sig .tc .vmem S1x256x4096 .f32) (harg7 : arg7.IsWhole) (arg8 : Memref sig .tc .vmem S64x4096 .bf16) (harg8 : arg8.IsWhole) (arg9 : Memref sig .tc .vmem S256x4096 .f32) (harg9 : arg9.IsWhole) (arg10 : Memref sig .tc .vmem S256x4096 .f32) (harg10 : arg10.IsWhole) (hc0 : ¬cond0_0 i) (hc1 : cond0_1 i) (x0 : Vec Ideal S1x256x4096 .f32) (x1 : Vec Ideal S256x64 .f32) (x2 : Vec Ideal S256x64 .f32) (x3 : Vec Ideal S256x256 .f32) (x4 : Vec Ideal S1x1 .f32)
    (xs0 : Vec Ideal S64x4096 .bf16) (xs1 : Vec Ideal S256x4096 .f32) :
    sout0_C_1 (F := Ideal) c i arg2 harg2 arg3 harg3 arg4 harg4 arg5 harg5 arg6 harg6 arg7 harg7 arg8 harg8 arg9 harg9 arg10 harg10 hc0 hc1 x0 x1 x2 x3 x4 xs0 xs1
      = stepFun (k0_pay6 (View.ld x0 (Rect.unit (k0_off1 i) S1x256x256.size (k0_off1_inb i))) x3) (k0_pay16 (F := Ideal) (Pfun (k0_pay5 (View.ld x0 (Rect.unit (k0_off1 i) S1x256x256.size (k0_off1_inb i))) x2) xs0)) (Pfun (k0_pay5 (View.ld x0 (Rect.unit (k0_off1 i) S1x256x256.size (k0_off1_inb i))) x2) xs0) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.readAt_eq_ld, harg2.read_unread, harg3.read_unread, harg4.read_unread, harg5.read_unread, harg6.read_unread, harg8.read_unread, harg9.read_unread,
    View.ld_unit_zero (S := S256x64) hz2, View.ld_unit_zero (S := S256x256) hz2, View.ld_unit_zero (S := S1x1) hz2, View.ld_unit_zero (S := S1x256x4096) hz3,
    View.ld_unit_zero (S := S256x4096) hz2, View.ld_unit_zero (S := S64x4096) hz2,
    pay7_eq, pay8_eq, pay10_eq, pay11_eq, pay12_eq, pay13_eq, pay14_eq, pay18_eq, pay21_eq, pay22_eq, pay25_eq, pay26_eq, pay20_eq, pay24_eq]
  rw [scores_read]
  simp only [readCov_wcons (S := S256x4096) _ hz2, View.ld_unit_zero (S := S256x4096) hz2]
  exact acc_canon_lit _ _ _ _ []

/-- The LAST block of a batch also writes the output block: the scale times the finished accumulator, plus the input. -/
theorem out_C_5 (c : Dev nD) (i : grid0.Coords) (arg2 : Memref sig .tc .vmem S1x256x4096 .f32) (harg2 : arg2.IsWhole) (arg3 : Memref sig .tc .vmem S256x64 .f32) (harg3 : arg3.IsWhole) (arg4 : Memref sig .tc .vmem S256x64 .f32) (harg4 : arg4.IsWhole) (arg5 : Memref sig .tc .vmem S256x256 .f32) (harg5 : arg5.IsWhole) (arg6 : Memref sig .tc .vmem S1x1 .f32) (harg6 : arg6.IsWhole) (arg7 : Memref sig .tc .vmem S1x256x4096 .f32) (harg7 : arg7.IsWhole) (arg8 : Memref sig .tc .vmem S64x4096 .bf16) (harg8 : arg8.IsWhole) (arg9 : Memref sig .tc .vmem S256x4096 .f32) (harg9 : arg9.IsWhole) (arg10 : Memref sig .tc .vmem S256x4096 .f32) (harg10 : arg10.IsWhole) (hc0 : ¬cond0_0 i) (hc1 : cond0_1 i) (x0 : Vec Ideal S1x256x4096 .f32) (x1 : Vec Ideal S256x64 .f32) (x2 : Vec Ideal S256x64 .f32) (x3 : Vec Ideal S256x256 .f32) (x4 : Vec Ideal S1x1 .f32)
    (xs0 : Vec Ideal S64x4096 .bf16) (xs1 : Vec Ideal S256x4096 .f32) :
    out0_C_5 (F := Ideal) c i arg2 harg2 arg3 harg3 arg4 harg4 arg5 harg5 arg6 harg6 arg7 harg7 arg8 harg8 arg9 harg9 arg10 harg10 hc0 hc1 x0 x1 x2 x3 x4 xs0 xs1
      = k0_pay1 x4 (stepFun (k0_pay6 (View.ld x0 (Rect.unit (k0_off1 i) S1x256x256.size (k0_off1_inb i))) x3) (k0_pay16 (F := Ideal) (Pfun (k0_pay5 (View.ld x0 (Rect.unit (k0_off1 i) S1x256x256.size (k0_off1_inb i))) x2) xs0)) (Pfun (k0_pay5 (View.ld x0 (Rect.unit (k0_off1 i) S1x256x256.size (k0_off1_inb i))) x2) xs0) xs1) x0 := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz3]
  simp only [View.readAt_eq_ld, harg2.read_unread, harg3.read_unread, harg4.read_unread, harg5.read_unread, harg6.read_unread, harg8.read_unread, harg9.read_unread,
    View.ld_unit_zero (S := S256x64) hz2, View.ld_unit_zero (S := S256x256) hz2, View.ld_unit_zero (S := S1x1) hz2, View.ld_unit_zero (S := S1x256x4096) hz3,
    View.ld_unit_zero (S := S256x4096) hz2, View.ld_unit_zero (S := S64x4096) hz2,
    pay7_eq, pay8_eq, pay10_eq, pay11_eq, pay12_eq, pay13_eq, pay14_eq, pay18_eq, pay21_eq, pay22_eq, pay25_eq, pay26_eq, pay20_eq, pay24_eq]
  rw [scores_read]
  simp only [readCov_wcons (S := S256x4096) _ hz2, View.ld_unit_zero (S := S256x4096) hz2]
  rw [acc_read_lit]
  rfl

end Cert.KernelIdeal.Pieces
end
-- ==== Proof.Blocks.lean ====
/-
  What the body finds in its input blocks, in the terms of the specification.

  The grid has 64 points: point `t` works on batch `t / 16` and on the block of keys number `t % 16`.  The first window
  stages batch `t / 16` of the input with its two trailing axes flattened (a reshape the host makes before the region);
  the three weight windows stage their whole arrays; the last input window stages the scale, reshaped to `1 × 1`.
-/
import proofs.«182164_j80702435492474_2_alg».proof.Proof.Gen.KernelIdeal.Frame
import proofs.«182164_j80702435492474_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-- The argument arrays, as functions of their indices. -/
abbrev xA : S4x256x64x64.Idx → EReal := m ((c : Thread nD τ).loc main_arg0)
abbrev wqA : S256x64.Idx → EReal := m ((c : Thread nD τ).loc main_arg1)
abbrev wkA : S256x64.Idx → EReal := m ((c : Thread nD τ).loc main_arg2)
abbrev wvA : S256x256.Idx → EReal := m ((c : Thread nD τ).loc main_arg3)
abbrev gA : S1.Idx → EReal := m ((c : Thread nD τ).loc main_arg4)

theorem lt64 (t : Fin cfg0.N) : t.val < 64 := lt_of_lt_of_eq t.isLt N_0

/-- The batch a grid point works on. -/
def bOf (t : Fin cfg0.N) : Fin 4 := ⟨t.val / 16, by have := lt64 t; omega⟩

/-- Where each window's block sits at a grid point, and the point's second coordinate: decided once over the 64 points. -/
theorem idx_facts : ∀ t : Fin cfg0.N,
    win0_0.index t (0 : Fin 3) = t.val / 16 ∧ win0_0.index t (1 : Fin 3) = 0 ∧ win0_0.index t (2 : Fin 3) = 0
    ∧ win0_5.index t (0 : Fin 3) = t.val / 16 ∧ win0_5.index t (1 : Fin 3) = 0 ∧ win0_5.index t (2 : Fin 3) = 0
    ∧ ((grid0.coords t) (1 : Fin 2)).val = t.val % 16 :=
  (by decide +kernel : ∀ t : Fin grid0.N, _)

theorem idx_facts' : ∀ t : Fin cfg0.N,
    win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0 :=
  (by decide +kernel : ∀ t : Fin grid0.N, _)

/-- The array the first window stages is the input with its two trailing axes flattened. -/
theorem V_v0 : (V m c main_v0 : S4x256x4096.Idx → EReal)
    = shapeCast S4x256x4096 (xA m c) shapeCasts_S4x256x64x64_S4x256x4096 := by
  show StableHlo.after hostOps0 (fun b => m (c, b)) (Proc.devRef .tc main_v0) = _
  after_results
  rfl

/-- The array the scale window stages is the scale, reshaped. -/
theorem V_v1 : (V m c main_v1 : S1x1.Idx → EReal) = shapeCast S1x1 (gA m c) shapeCasts_S1_S1x1 := by
  show StableHlo.after hostOps0 (fun b => m (c, b)) (Proc.devRef .tc main_v1) = _
  after_results
  rfl

/-- Flattening the two trailing axes: position `n` of the flat axis is `(n / 64, n % 64)`. -/
theorem flat_apply (x : S4x256x64x64.Idx → EReal) (b : Fin 4) (ch : Fin 256) (n : Fin 4096) :
    shapeCast S4x256x4096 x shapeCasts_S4x256x64x64_S4x256x4096 (ix3 b ch n) = Cert.Attn.Xof x b ch n := by
  unfold Cert.Attn.Xof
  refine shapeCast_apply x _ _ _ ?_
  rw [Shape.rowMajor_val_four, Shape.rowMajor_val_three]
  show ((b.val * 256 + ch.val) * 64 + n.val / 64) * 64 + n.val % 64 = (b.val * 256 + ch.val) * 4096 + n.val
  have := n.isLt
  omega

/-- The first window's block at a point is its batch of the input. -/
theorem iblk0_apply (t : Fin cfg0.N) (u : Fin 1) (ch : Fin 256) (n : Fin 4096) :
    (iblk m c 0 t (ix3 u ch n) : EReal) = Cert.Attn.Xof (xA m c) (bOf t) ch n := by
  rw [← flat_apply, ← V_v0]
  unfold iblk
  rw [View.read_apply]
  show V m c main_v0 _ = V m c main_v0 _
  congr 1
  funext a
  apply Fin.ext
  have hu : u.val = 0 := by omega
  match a with
  | ⟨0, _⟩ => show win0_0.index t 0 * 1 + 1 * u.val = t.val / 16; rw [(idx_facts t).1]; omega
  | ⟨1, _⟩ => show win0_0.index t 1 * 256 + 1 * ch.val = ch.val; rw [(idx_facts t).2.1]; omega
  | ⟨2, _⟩ => show win0_0.index t 2 * 4096 + 1 * n.val = n.val; rw [(idx_facts t).2.2.1]; omega

theorem iblk1_apply (t : Fin cfg0.N) (a : Fin 256) (d : Fin 64) : (iblk m c 1 t (ix2 a d) : EReal) = wqA m c (ix2 a d) := by
  unfold iblk
  rw [View.read_apply]
  show V m c main_arg1 _ = _
  rw [V_main_arg1]
  show m ((c : Thread nD τ).loc main_arg1) _ = m ((c : Thread nD τ).loc main_arg1) _
  congr 1
  funext x
  apply Fin.ext
  match x with
  | ⟨0, _⟩ => show win0_1.index t 0 * 256 + 1 * a.val = a.val; rw [(idx_facts' t).1]; omega
  | ⟨1, _⟩ => show win0_1.index t 1 * 64 + 1 * d.val = d.val; rw [(idx_facts' t).2.1]; omega

theorem iblk2_apply (t : Fin cfg0.N) (a : Fin 256) (d : Fin 64) : (iblk m c 2 t (ix2 a d) : EReal) = wkA m c (ix2 a d) := by
  unfold iblk
  rw [View.read_apply]
  show V m c main_arg2 _ = _
  rw [V_main_arg2]
  show m ((c : Thread nD τ).loc main_arg2) _ = m ((c : Thread nD τ).loc main_arg2) _
  congr 1
  funext x
  apply Fin.ext
  match x with
  | ⟨0, _⟩ => show win0_2.index t 0 * 256 + 1 * a.val = a.val; rw [(idx_facts' t).2.2.1]; omega
  | ⟨1, _⟩ => show win0_2.index t 1 * 64 + 1 * d.val = d.val; rw [(idx_facts' t).2.2.2.1]; omega

theorem iblk3_apply (t : Fin cfg0.N) (a : Fin 256) (d : Fin 256) : (iblk m c 3 t (ix2 a d) : EReal) = wvA m c (ix2 a d) := by
  unfold iblk
  rw [View.read_apply]
  show V m c main_arg3 _ = _
  rw [V_main_arg3]
  show m ((c : Thread nD τ).loc main_arg3) _ = m ((c : Thread nD τ).loc main_arg3) _
  congr 1
  funext x
  apply Fin.ext
  match x with
  | ⟨0, _⟩ => show win0_3.index t 0 * 256 + 1 * a.val = a.val; rw [(idx_facts' t).2.2.2.2.1]; omega
  | ⟨1, _⟩ => show win0_3.index t 1 * 256 + 1 * d.val = d.val; rw [(idx_facts' t).2.2.2.2.2.1]; omega

theorem iblk4_apply (t : Fin cfg0.N) : (iblk m c 4 t (ix2 (0 : Fin 1) (0 : Fin 1)) : EReal) = gA m c (ix1 (0 : Fin 1)) := by
  rw [← shapeCast_a_1a_apply (gA m c) shapeCasts_S1_S1x1 (0 : Fin 1) (0 : Fin 1), ← V_v1]
  unfold iblk
  rw [View.read_apply]
  show V m c main_v1 _ = V m c main_v1 _
  congr 1
  funext x
  apply Fin.ext
  match x with
  | ⟨0, _⟩ => show win0_4.index t 0 * 1 + 1 * 0 = 0; rw [(idx_facts' t).2.2.2.2.2.2.1]
  | ⟨1, _⟩ => show win0_4.index t 1 * 1 + 1 * 0 = 0; rw [(idx_facts' t).2.2.2.2.2.2.2]

/-- The weight blocks as whole functions. -/
theorem iblk1_eq (t : Fin cfg0.N) : (iblk m c 1 t : S256x64.Idx → EReal) = wqA m c :=
  funext fun y => by rw [eq_ix2 y]; exact iblk1_apply m c t _ _
theorem iblk2_eq (t : Fin cfg0.N) : (iblk m c 2 t : S256x64.Idx → EReal) = wkA m c :=
  funext fun y => by rw [eq_ix2 y]; exact iblk2_apply m c t _ _
theorem iblk3_eq (t : Fin cfg0.N) : (iblk m c 3 t : S256x256.Idx → EReal) = wvA m c :=
  funext fun y => by rw [eq_ix2 y]; exact iblk3_apply m c t _ _

/-- The block of 256 positions the body loads at a point: positions `256 · (t % 16), …` of the point's batch. -/
theorem tile_apply (t : Fin cfg0.N) (c' : Fin 256) (kk : Fin 256) :
    (View.ld (iblk m c 0 t : S1x256x4096.Idx → EReal) (Rect.unit (k0_off1 (grid0.coords t)) S1x256x256.size (k0_off1_inb (grid0.coords t))) (ix3 (0 : Fin 1) c' kk) : EReal)
      = Cert.Attn.Xof (xA m c) (bOf t) c' ⟨kk.val + 256 * (t.val % 16), by have := kk.isLt; omega⟩ := by
  rw [← iblk0_apply m c t (0 : Fin 1)]
  show iblk m c 0 t _ = iblk m c 0 t _
  congr 1
  funext a
  apply Fin.ext
  have e := k0_off1_eq (grid0.coords t)
  match a with
  | ⟨0, _⟩ => show k0_off1 (grid0.coords t) 0 + 1 * 0 = 0; rw [e]; rfl
  | ⟨1, _⟩ => show k0_off1 (grid0.coords t) 1 + 1 * c'.val = c'.val; rw [e]; show 0 + 1 * c'.val = c'.val; omega
  | ⟨2, _⟩ => show k0_off1 (grid0.coords t) 2 + 1 * kk.val = kk.val + 256 * (t.val % 16); rw [e]; show 256 * ((grid0.coords t) 1).val + 1 * kk.val = _; rw [(idx_facts t).2.2.2.2.2.2]; omega

end Cert.KernelIdeal.Blocks

end
-- ==== Proof.Invariant.lean ====
/-
  The running state of the grid, point by point.

  After the point that handles block `kt` of batch `b`, the query cache holds the query projection of batch `b`, and the
  accumulator holds the attention sum over the first `kt + 1` blocks of keys of batch `b`; after the last block of a
  batch the output block holds the batch's result.  By induction on the point: the first block of a batch starts both
  afresh, every other block steps what the point before left.
-/
import proofs.«182164_j80702435492474_2_alg».proof.Proof.Gen.KernelIdeal.Frame
import proofs.«182164_j80702435492474_2_alg».proof.Proof.Pieces
import proofs.«182164_j80702435492474_2_alg».proof.Proof.Blocks
import proofs.«182164_j80702435492474_2_alg».proof.Proof.Block
import proofs.«182164_j80702435492474_2_alg».proof.Proof.Spec

set_option maxRecDepth 16384

noncomputable section

namespace Cert.KernelIdeal.Inv

open Idealize.ShloMosaic Idealize.ShloMosaic.TcCoe Idealize.ShloMosaic.ValueIdx Idealize.SL.Sem
open Cert.KernelIdeal Cert.KernelIdeal.Gen Cert.KernelIdeal.Pay Cert.KernelIdeal.Block Cert.KernelIdeal.Blocks Cert.KernelIdeal.Pieces

variable (m : (ℓ : Loc nD τ sig) → Buf (Elt Ideal) ℓ) (c : Dev nD)

/-- The query projection of batch `b`. -/
def Qarr (b : Fin 4) : Vec Ideal S64x4096 .bf16 :=
  fun y => Cert.Attn.Qf (wqA m c) (Cert.Attn.Xof (xA m c) b) (y 0) (y 1)

/-- The attention sum of batch `b` over its first `T` blocks of keys. -/
def Aarr (b : Fin 4) (T : ℕ) : Vec Ideal S256x4096 .f32 :=
  fun y => Cert.Attn.accT (wqA m c) (wkA m c) (wvA m c) (Cert.Attn.Xof (xA m c) b) T (y 0) (y 1)

/-- The result of batch `b`. -/
def Oblk (b : Fin 4) : Vec Ideal S1x256x4096 .f32 :=
  fun y => Cert.Attn.Outb (gA m c (ix1 (0 : Fin 1))) (wqA m c) (wkA m c) (wvA m c) (Cert.Attn.Xof (xA m c) b) (y 1) (y 2)

/-- The first block's projection of the queries is the batch's query projection. -/
theorem q_first (t : Fin cfg0.N) : k0_pay2 (iblk m c 0 t) (iblk m c 1 t) = Qarr m c (bOf t) := by
  funext y
  rw [eq_ix2 y]
  exact (pay2_apply _ _ (y 0) (y 1)).trans (Finset.sum_congr rfl fun cc _ =>
    congrArg₂ (fun a b : EReal => a * b) (iblk1_apply m c t cc (y 0)) (iblk0_apply m c t (0 : Fin 1) cc (y 1)))

/-- The zero block is the attention sum over no block. -/
theorem a_zero (b : Fin 4) : k0_pay3 (F := Ideal) = Aarr m c b 0 := by
  funext y
  rw [pay3_apply]
  exact (Cert.Attn.accT_zero _ _ _ _ _ _).symm

/-- One step at a point: from the sum over the blocks before the point's to the sum including it. -/
theorem step_at (t : Fin cfg0.N) (Qv : Vec Ideal S64x4096 .bf16) (A : Vec Ideal S256x4096 .f32)
    (hQ : Qv = Qarr m c (bOf t)) (hA : A = Aarr m c (bOf t) (t.val % 16)) :
    stepFun (k0_pay6 (View.ld (iblk m c 0 t : S1x256x4096.Idx → EReal) (Rect.unit (k0_off1 (grid0.coords t)) S1x256x256.size (k0_off1_inb (grid0.coords t)))) (iblk m c 3 t)) (k0_pay16 (F := Ideal) (Pfun (k0_pay5 (View.ld (iblk m c 0 t : S1x256x4096.Idx → EReal) (Rect.unit (k0_off1 (grid0.coords t)) S1x256x256.size (k0_off1_inb (grid0.coords t)))) (iblk m c 2 t)) Qv)) (Pfun (k0_pay5 (View.ld (iblk m c 0 t : S1x256x4096.Idx → EReal) (Rect.unit (k0_off1 (grid0.coords t)) S1x256x256.size (k0_off1_inb (grid0.coords t)))) (iblk m c 2 t)) Qv) A
      = Aarr m c (bOf t) (t.val % 16 + 1) := by
  funext y
  rw [eq_ix2 y]
  exact step_spec (View.ld (iblk m c 0 t : S1x256x4096.Idx → EReal) (Rect.unit (k0_off1 (grid0.coords t)) S1x256x256.size (k0_off1_inb (grid0.coords t)))) (iblk m c 2 t) (iblk m c 3 t) Qv (wqA m c) (wkA m c) (wvA m c) (iblk2_eq m c t) (iblk3_eq m c t)
    (Cert.Attn.Xof (xA m c) (bOf t)) A (t.val % 16) (Nat.mod_lt _ (by norm_num))
    (fun c' kk => tile_apply m c t c' kk) (fun d n => by rw [hQ]; rfl) (fun cc n => by rw [hA]; rfl) (y 0) (y 1)

/-- The output block written after the last block of a batch is the batch's result. -/
theorem out_last (t : Fin cfg0.N) (h15 : t.val % 16 = 15) :
    k0_pay1 (iblk m c 4 t) (Aarr m c (bOf t) (t.val % 16 + 1)) (iblk m c 0 t) = Oblk m c (bOf t) := by
  funext y
  rw [eq_ix3 y]
  refine (pay1_apply _ _ _ (y 0) (y 1) (y 2)).trans ?_
  rw [h15]
  have e4 := iblk4_apply m c t
  have e0 := iblk0_apply m c t (0 : Fin 1) (y 1) (y 2)
  have ef := Cert.Attn.accT_full (wqA m c) (wkA m c) (wvA m c) (Cert.Attn.Xof (xA m c) (bOf t)) (y 1) (y 2)
  exact congrArg₂ (fun a b : EReal => a + b) (congrArg₂ (fun a b : EReal => a * b) e4 ef) e0

theorem A_q (t : Fin cfg0.N) (h0 : t.val % 16 = 0) (h1 : ¬t.val % 16 = 15) :
    (outsAt0 m c t.val t.isLt).2.1 = Qarr m c (bOf t) := by
  rw [outsAt0_A m c t h0 h1]
  dsimp only
  exact (sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ (iblk m c 0 t) (iblk m c 1 t) (iblk m c 2 t) (iblk m c 3 t) (iblk m c 4 t)).trans (q_first m c t)

theorem A_a (t : Fin cfg0.N) (h0 : t.val % 16 = 0) (h1 : ¬t.val % 16 = 15) :
    (outsAt0 m c t.val t.isLt).2.2 = Aarr m c (bOf t) (t.val % 16 + 1) := by
  rw [outsAt0_A m c t h0 h1]
  dsimp only
  refine (sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ (iblk m c 0 t) (iblk m c 1 t) (iblk m c 2 t) (iblk m c 3 t) (iblk m c 4 t)).trans ?_
  exact step_at m c t _ _ (q_first m c t) (by rw [h0]; exact a_zero m c (bOf t))

theorem B_q (t : Fin cfg0.N) (h0 : ¬t.val % 16 = 0) (h1 : ¬t.val % 16 = 15) :
    (outsAt0 m c t.val t.isLt).2.1 = (outsAt0 m c (t.val - 1) (Nat.lt_of_le_of_lt (Nat.sub_le _ _) t.isLt)).2.1 := by
  rw [outsAt0_B m c t h0 h1]
  rfl

theorem B_a (t : Fin cfg0.N) (h0 : ¬t.val % 16 = 0) (h1 : ¬t.val % 16 = 15)
    (ihQ : (outsAt0 m c (t.val - 1) (Nat.lt_of_le_of_lt (Nat.sub_le _ _) t.isLt)).2.1 = Qarr m c (bOf t)) (ihA : (outsAt0 m c (t.val - 1) (Nat.lt_of_le_of_lt (Nat.sub_le _ _) t.isLt)).2.2 = Aarr m c (bOf t) (t.val % 16)) :
    (outsAt0 m c t.val t.isLt).2.2 = Aarr m c (bOf t) (t.val % 16 + 1) := by
  rw [outsAt0_B m c t h0 h1]
  dsimp only
  refine (sout_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans ?_
  exact step_at m c t _ _ ihQ ihA

theorem C_q (t : Fin cfg0.N) (h0 : ¬t.val % 16 = 0) (h1 : t.val % 16 = 15) :
    (outsAt0 m c t.val t.isLt).2.1 = (outsAt0 m c (t.val - 1) (Nat.lt_of_le_of_lt (Nat.sub_le _ _) t.isLt)).2.1 := by
  rw [outsAt0_C m c t h0 h1]
  rfl

theorem C_a (t : Fin cfg0.N) (h0 : ¬t.val % 16 = 0) (h1 : t.val % 16 = 15)
    (ihQ : (outsAt0 m c (t.val - 1) (Nat.lt_of_le_of_lt (Nat.sub_le _ _) t.isLt)).2.1 = Qarr m c (bOf t)) (ihA : (outsAt0 m c (t.val - 1) (Nat.lt_of_le_of_lt (Nat.sub_le _ _) t.isLt)).2.2 = Aarr m c (bOf t) (t.val % 16)) :
    (outsAt0 m c t.val t.isLt).2.2 = Aarr m c (bOf t) (t.val % 16 + 1) := by
  rw [outsAt0_C m c t h0 h1]
  dsimp only
  refine (sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans ?_
  exact step_at m c t _ _ ihQ ihA

theorem C_o (t : Fin cfg0.N) (h0 : ¬t.val % 16 = 0) (h1 : t.val % 16 = 15)
    (ihQ : (outsAt0 m c (t.val - 1) (Nat.lt_of_le_of_lt (Nat.sub_le _ _) t.isLt)).2.1 = Qarr m c (bOf t)) (ihA : (outsAt0 m c (t.val - 1) (Nat.lt_of_le_of_lt (Nat.sub_le _ _) t.isLt)).2.2 = Aarr m c (bOf t) (t.val % 16)) :
    (outsAt0 m c t.val t.isLt).1 = Oblk m c (bOf t) := by
  rw [outsAt0_C m c t h0 h1]
  dsimp only
  refine (out_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) _ _ (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans ?_
  exact (congrArg (fun z => k0_pay1 (iblk m c 4 t) z (iblk m c 0 t)) (step_at m c t _ _ ihQ ihA)).trans (out_last m c t h1)

/-- THE INVARIANT, at every point. -/
theorem inv (n : ℕ) : ∀ (h : n < cfg0.N),
    ((outsAt0 m c n h).2.1 = Qarr m c (bOf ⟨n, h⟩) ∧ (outsAt0 m c n h).2.2 = Aarr m c (bOf ⟨n, h⟩) (n % 16 + 1))
      ∧ (n % 16 = 15 → (outsAt0 m c n h).1 = Oblk m c (bOf ⟨n, h⟩)) := by
  induction n with
  | zero =>
    intro h
    have h1 : ¬(⟨0, h⟩ : Fin cfg0.N).val % 16 = 15 := by show ¬0 % 16 = 15; decide
    exact ⟨⟨A_q m c ⟨0, h⟩ rfl h1, A_a m c ⟨0, h⟩ rfl h1⟩, fun h15 => absurd h15 (by decide)⟩
  | succ n ih =>
    intro h
    have hn : n < cfg0.N := Nat.lt_of_succ_lt h
    by_cases h0 : (n + 1) % 16 = 0
    · have h1 : ¬(n + 1) % 16 = 15 := by omega
      exact ⟨⟨A_q m c ⟨n + 1, h⟩ h0 h1, A_a m c ⟨n + 1, h⟩ h0 h1⟩, fun h15 => absurd h15 h1⟩
    · have hb : bOf ⟨n, hn⟩ = bOf ⟨n + 1, h⟩ := Fin.ext (by show n / 16 = (n + 1) / 16; omega)
      have hk : n % 16 + 1 = (n + 1) % 16 := by omega
      have ihQ : (outsAt0 m c n hn).2.1 = Qarr m c (bOf ⟨n + 1, h⟩) := hb ▸ (ih hn).1.1
      have ihA : (outsAt0 m c n hn).2.2 = Aarr m c (bOf ⟨n + 1, h⟩) ((n + 1) % 16) := by rw [← hb, ← hk]; exact (ih hn).1.2
      by_cases h1 : (n + 1) % 16 = 15
      · exact ⟨⟨(C_q m c ⟨n + 1, h⟩ h0 h1).trans ihQ, C_a m c ⟨n + 1, h⟩ h0 h1 ihQ ihA⟩, fun _ => C_o m c ⟨n + 1, h⟩ h0 h1 ihQ ihA⟩
      · exact ⟨⟨(B_q m c ⟨n + 1, h⟩ h0 h1).trans ihQ, B_a m c ⟨n + 1, h⟩ h0 h1 ihQ ihA⟩, fun h15 => absurd h15 h1⟩

end Cert.KernelIdeal.Inv

end
-- ==== Proof.KernelValue.lean ====
/-
  The kernel's result array.

  Only the last block of each batch writes the output window back, and its block is the whole batch: so the region's
  output array ends holding, batch by batch, the specification's result (the four written-back blocks cover it).  The host
  then splits the flat axis of 4096 positions back into 64 × 64, which is the specification's `G`.
-/
import proofs.«182164_j80702435492474_2_alg».proof.Proof.Gen.KernelIdeal.Frame
import proofs.«182164_j80702435492474_2_alg».proof.Proof.Invariant
import proofs.«182164_j80702435492474_2_alg».proof.Proof.Blocks
import proofs.«182164_j80702435492474_2_alg».proof.Proof.Spec
import Idealize.ShloMosaic.Lib.Pipeline.Value
import Idealize.ShloMosaic.Lib.StableHlo.Run
import Idealize.ShloMosaic.Lib.Tactic

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.Inv

variable (m : (ℓ : Loc nD τ sig) → Buf (Elt Ideal) ℓ) (ρ : Dev nD → PrngReg) (c : Dev nD)

/-- The region's output array: the result, batch by batch, over the flat axis of positions. -/
def G2 : S4x256x4096.Idx → EReal := fun i =>
  Cert.Attn.Outb (gA m c (ix1 (0 : Fin 1))) (wqA m c) (wkA m c) (wvA m c) (Cert.Attn.Xof (xA m c) (i 0)) (i 1) (i 2)

/-- What a writing-back point writes is its batch of `G2`. -/
theorem flushed_eq (t : Fin cfg0.N) (hf : (cfg0.win 5).flush t = true) :
    (dats m 0 c).flushed 5 t = ((cfg0.win 5).blk t).view.read (Elt Ideal) (G2 m c) := by
  have h15 : t.val % 16 = 15 := (flush0_5 t).mp hf
  show (cfg0.win 5).cut (grid0.coords t) ((dats m 0 c).after 5 t) = _
  rw [after0_5, (inv m c t.val t.isLt).2 h15]
  funext j
  show Oblk m c (bOf t) j = G2 m c (((cfg0.win 5).blk t).view.emb j)
  have hj : (j 0).val = 0 := by have h : (j 0).val < 1 := (j 0).isLt; omega
  have he : ((cfg0.win 5).blk t).view.emb j = ix3 (bOf t) (j 1) (j 2) := by
    funext a
    apply Fin.ext
    match a with
    | ⟨0, _⟩ => show win0_5.index t 0 * 1 + 1 * (j 0).val = t.val / 16; rw [(idx_facts t).2.2.2.1]; omega
    | ⟨1, _⟩ => show win0_5.index t 1 * 256 + 1 * (j 1).val = (j 1).val; rw [(idx_facts t).2.2.2.2.1]; omega
    | ⟨2, _⟩ => show win0_5.index t 2 * 4096 + 1 * (j 2).val = (j 2).val; rw [(idx_facts t).2.2.2.2.2.1]; omega
  rw [he]
  rfl

/-- The region's output array after the run. -/
theorem final (c : Dev nD) : (dats m 0 c).arrAt 5 cfg0.N = G2 m c :=
  (dats m 0 c).arrAt_eq_of_cover 5 (G2 m c) (fun t hf => flushed_eq m c t hf) fun i => by
    have hb : (i 0).val < 4 := (i 0).isLt
    have hN : cfg0.N = 64 := N_0
    let t : Fin cfg0.N := ⟨16 * (i 0).val + 15, by omega⟩
    have ht : t.val = 16 * (i 0).val + 15 := rfl
    refine ⟨t, (flush0_5 t).mpr (by rw [ht]; omega), ?_⟩
    show i ∈ ((View.whole main_v2).slice (win0_5.rect t)).set
    rw [View.set_slice_whole, Rect.mem_set_unit]
    intro a
    have h1 : (i 1).val < 256 := (i 1).isLt
    have h2 : (i 2).val < 4096 := (i 2).isLt
    match a with
    | ⟨0, _⟩ => show win0_5.index t 0 * 1 ≤ (i 0).val ∧ (i 0).val < win0_5.index t 0 * 1 + 1; rw [(idx_facts t).2.2.2.1, ht]; omega
    | ⟨1, _⟩ => show win0_5.index t 1 * 256 ≤ (i 1).val ∧ (i 1).val < win0_5.index t 1 * 256 + 256; rw [(idx_facts t).2.2.2.2.1]; omega
    | ⟨2, _⟩ => show win0_5.index t 2 * 4096 ≤ (i 2).val ∧ (i 2).val < win0_5.index t 2 * 4096 + 4096; rw [(idx_facts t).2.2.2.2.2.1]; omega

/-- Splitting the flat axis back into 64 × 64 gives the specification's result. -/
theorem unflat_eq :
    shapeCast S4x256x64x64 (G2 m c) shapeCasts_S4x256x4096_S4x256x64x64
      = Cert.Attn.G (xA m c) (wqA m c) (wkA m c) (wvA m c) (gA m c) := by
  funext i
  have h2 : (i 2).val < 64 := (i 2).isLt
  have h3 : (i 3).val < 64 := (i 3).isLt
  refine (shapeCast_apply (G2 m c) _ i (ix3 (i 0) (i 1) ⟨64 * (i 2).val + (i 3).val, by omega⟩) ?_).trans rfl
  rw [Shape.rowMajor_val_four, Shape.rowMajor_val_three]
  show ((i 0).val * 256 + (i 1).val) * 4096 + (64 * (i 2).val + (i 3).val) = (((i 0).val * 256 + (i 1).val) * 64 + (i 2).val) * 64 + (i 3).val
  omega

/-- The host's last line, applied to the region's output. -/
theorem tail_eq :
    Pipeline.afterTail₀ cfgs (dats m) 0 (V0 m) [hostOps1] c main_v3
      = Cert.Attn.G (xA m c) (wqA m c) (wkA m c) (wvA m c) (gA m c) := by
  rw [← unflat_eq, ← final m c]
  unfold Pipeline.afterTail₀
  show StableHlo.after hostOps1 _ (Proc.devRef .tc main_v3) = _
  after_results
  have hw := Pipeline.withArrays_arr spec0 launch0.win.arr_inj c (V0 m c) (fun w => (dats m 0 c).arrAt w cfg0.N) 5
  funext i
  exact congrArg (fun z => shapeCast S4x256x64x64 z shapeCasts_S4x256x4096_S4x256x64x64 i) hw

/-- The kernel's run, read: the result array at the specification's `G` of the argument arrays, the arguments unchanged. -/
theorem run : θ_run defs (onTc (τ := τ) (main (F := Ideal))) ⟨m, fun _ => 0, ρ⟩ fun r => ∀ c : Dev nD,
      r.2.mem ((c.tc : Thread nD τ).loc main_v3) = Cert.Attn.G (xA m c) (wqA m c) (wkA m c) (wvA m c) (gA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.KV

end
-- ==== Proof.lean ====
/-
  The certificate of a self-attention block whose softmax runs over the query axis: for each batch, with `X` the 256 × 4096
  matrix of the input (channels by positions), queries `Q = Wqᵀ X`, keys `K = Wkᵀ X`, values `V = Wvᵀ X`, scores
  `S[k, n] = ∑ d, K[d, k] · Q[d, n]`, each key's row of scores normalised by a softmax over the queries, and the result
  `γ · ∑ k, V[c, k] · P[k, n] / L[k] + X[c, n]`.

  The kernel walks the keys in sixteen blocks of 256 per batch, caching the queries and accumulating the sum block by block;
  the reference computes the whole 4096 × 4096 score array at once with the factors in the other order.  On the extended reals
  both are the function `Cert.Attn.G` of the argument arrays: products commute, and the sum over the keys may be taken
  block by block.  No step needs the inputs to be finite.

  The three frames are the generated ones (the reference's is its run with the result dropped); the idealization rewrote
  nothing, so the fourth claim is `True`.
-/
import proofs.«182164_j80702435492474_2_alg».proof.Defs
import proofs.«182164_j80702435492474_2_alg».proof.Proof.Gen.Kernel
import proofs.«182164_j80702435492474_2_alg».proof.Proof.Gen.Kernel.Frame
import proofs.«182164_j80702435492474_2_alg».proof.Proof.Gen.KernelIdeal
import proofs.«182164_j80702435492474_2_alg».proof.Proof.Gen.KernelIdeal.Frame
import proofs.«182164_j80702435492474_2_alg».proof.Proof.Gen.ReferenceIdeal
import proofs.«182164_j80702435492474_2_alg».proof.Proof.Gen.Pre_finite_inputs
import proofs.«182164_j80702435492474_2_alg».proof.Proof.Gen.ReferenceIdeal.Run
import proofs.«182164_j80702435492474_2_alg».proof.Proof.Gen.ReferenceIdeal.Read
import proofs.«182164_j80702435492474_2_alg».proof.Proof.RefValue
import proofs.«182164_j80702435492474_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at `Cert.Attn.G` of the argument arrays. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KV.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v23_eq, Cert.Attn.Ref.ref_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
